-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S4x2048x1024 .f32) (main_arg1 : FVec F S8x1024x2048 .f32) (main_arg2 : FVec F S8x2048 .f32) (main_arg3 : FVec F S8x2048x1024 .f32) (main_arg4 : FVec F S8x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x2048x1024 .f32 := Host.absf main_arg3
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_arg4 main_v13 main_v16
-- ==== Kernel.lean ====
abbrev S4x2048x1024 : Shape := ⟨3, ![4, 2048, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S8x1x2048 : Shape := ⟨3, ![8, 1, 2048]⟩
abbrev S8x1x1024 : Shape := ⟨3, ![8, 1, 1024]⟩
abbrev S4x128x1024 : Shape := ⟨3, ![4, 128, 1024]⟩
abbrev S1x1024x2048 : Shape := ⟨3, ![1, 1024, 2048]⟩
abbrev S1x1x2048 : Shape := ⟨3, ![1, 1, 2048]⟩
abbrev S1x2048x1024 : Shape := ⟨3, ![1, 2048, 1024]⟩
abbrev S1x1x1024 : Shape := ⟨3, ![1, 1, 1024]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S2048x1024 : Shape := ⟨2, ![2048, 1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S8x1024x2048, .f32⟩
  | .hbm, ⟨2, _⟩ => ⟨S8x2048, .f32⟩
  | .hbm, ⟨3, _⟩ => ⟨S8x2048x1024, .f32⟩
  | .hbm, ⟨4, _⟩ => ⟨S8x1024, .f32⟩
  | .hbm, ⟨5, _⟩ => ⟨S8x1x2048, .f32⟩
  | .hbm, ⟨6, _⟩ => ⟨S8x1x1024, .f32⟩
  | .hbm, ⟨7, _⟩ => ⟨S4x2048x1024, .f32⟩
  | .local _ .vmem, ⟨0, _⟩ => ⟨S4x128x1024, .f32⟩
  | .local _ .vmem, ⟨1, _⟩ => ⟨S4x128x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x1024, .f32⟩
  | .local _ .vmem, ⟨7, _⟩ => ⟨S1x2048x1024, .f32⟩
  | .local _ .vmem, ⟨8, _⟩ => ⟨S1x1x1024, .f32⟩
  | .local _ .vmem, ⟨9, _⟩ => ⟨S1x1x1024, .f32⟩
  | .local _ .vmem, ⟨10, _⟩ => ⟨S4x128x1024, .f32⟩
  | .local _ .vmem, ⟨11, _⟩ => ⟨S4x128x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x2048_S8x1x2048 : S8x2048.ShapeCasts S8x1x2048
  shapeCasts_S8x1024_S8x1x1024 : S8x1024.ShapeCasts S8x1x1024
  inb_S4x128x1024_S4x128x1024_0_0_0 : ∀ a, (![0, 0, 0] : Fin 3 → Nat) a + S4x128x1024.size a ≤ S4x128x1024.size a
  h_S4x128x1024 : 0 < S4x128x1024.numel
  shapeCasts_S4x128x1024_S512x1024 : S4x128x1024.ShapeCasts S512x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S4x128x1024 : S512x1024.ShapeCasts S4x128x1024
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x1024.size a ≤ S4x2048x1024.size a
  hwx0_0 : ∀ i : grid0.Coords, EltTy.bits .f32 = 32 ∨ (Rect.block (s := S4x2048x1024) S4x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x2048.size a
  hwx0_1 : ∀ i : grid0.Coords, EltTy.bits .f32 = 32 ∨ (Rect.block (s := S8x1024x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .f32 = 32 ∨ (Rect.block (s := S8x2048x1024) S1x2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x128x1024.size a ≤ S4x2048x1024.size a
  hwx0_5 : ∀ i : grid0.Coords, EltTy.bits .f32 = 32 ∨ (Rect.block (s := S4x2048x1024) S4x128x1024.size (cc0_transform_5 i) (hinb0_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S4x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4x128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S4x256x1024 : Shape := ⟨3, ![4, 256, 1024]⟩
abbrev S1x1024x2048 : Shape := ⟨3, ![1, 1024, 2048]⟩
abbrev S1024x2048 : Shape := ⟨2, ![1024, 2048]⟩
abbrev S4x256x2048 : Shape := ⟨3, ![4, 256, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 278
  | .vmem => 0
  | .smem => 0
  | _ => 0

abbrev hbmTy0_0 (i : Nat) : BufTy := match i % 128 with
  | 0 => ⟨S4x2048x1024, .f32⟩
  | 1 => ⟨S8x1024x2048, .f32⟩
  | 2 => ⟨S8x2048, .f32⟩
  | 3 => ⟨S8x2048x1024, .f32⟩
  | 4 => ⟨S8x1024, .f32⟩
  | 5 => ⟨S4x256x1024, .f32⟩
  | 6 => ⟨S4x256x1024, .f32⟩
  | 7 => ⟨S4x256x1024, .f32⟩
  | 8 => ⟨S4x256x1024, .f32⟩
  | 9 => ⟨S4x256x1024, .f32⟩
  | 10 => ⟨S4x256x1024, .f32⟩
  | 11 => ⟨S4x256x1024, .f32⟩
  | 12 => ⟨S4x256x1024, .f32⟩
  | 13 => ⟨S1x1024x2048, .f32⟩
  | 14 => ⟨S1024x2048, .f32⟩
  | 15 => ⟨S4x256x2048, .f32⟩
  | 16 => ⟨S1x2048, .f32⟩
  | 17 => ⟨S2048, .f32⟩
  | 18 => ⟨S1x1x2048, .f32⟩
  | 19 => ⟨S4x256x2048, .f32⟩
  | 20 => ⟨S4x256x2048, .f32⟩
  | 21 => ⟨S4x256x2048, .f32⟩
  | 22 => ⟨S4x256x2048, .f32⟩
  | 23 => ⟨S_, .f32⟩
  | 24 => ⟨S4x256x2048, .f32⟩
  | 25 => ⟨S4x256x2048, .f32⟩
  | 26 => ⟨S4x256x2048, .f32⟩
  | 27 => ⟨S_, .f32⟩
  | 28 => ⟨S4x256x2048, .f32⟩
  | 29 => ⟨S4x256x2048, .f32⟩
  | 30 => ⟨S4x256x2048, .f32⟩
  | 31 => ⟨S_, .f32⟩
  | 32 => ⟨S4x256x2048, .f32⟩
  | 33 => ⟨S4x256x2048, .f32⟩
  | 34 => ⟨S_, .f32⟩
  | 35 => ⟨S4x256x2048, .f32⟩
  | 36 => ⟨S4x256x2048, .f32⟩
  | 37 => ⟨S4x256x2048, .f32⟩
  | 38 => ⟨S1x2048x1024, .f32⟩
  | 39 => ⟨S2048x1024, .f32⟩
  | 40 => ⟨S4x256x1024, .f32⟩
  | 41 => ⟨S1x1024, .f32⟩
  | 42 => ⟨S1024, .f32⟩
  | 43 => ⟨S1x1x1024, .f32⟩
  | 44 => ⟨S4x256x1024, .f32⟩
  | 45 => ⟨S4x256x1024, .f32⟩
  | 46 => ⟨S1x1024x2048, .f32⟩
  | 47 => ⟨S1024x2048, .f32⟩
  | 48 => ⟨S4x256x2048, .f32⟩
  | 49 => ⟨S1x2048, .f32⟩
  | 50 => ⟨S2048, .f32⟩
  | 51 => ⟨S1x1x2048, .f32⟩
  | 52 => ⟨S4x256x2048, .f32⟩
  | 53 => ⟨S4x256x2048, .f32⟩
  | 54 => ⟨S4x256x2048, .f32⟩
  | 55 => ⟨S4x256x2048, .f32⟩
  | 56 => ⟨S_, .f32⟩
  | 57 => ⟨S4x256x2048, .f32⟩
  | 58 => ⟨S4x256x2048, .f32⟩
  | 59 => ⟨S4x256x2048, .f32⟩
  | 60 => ⟨S_, .f32⟩
  | 61 => ⟨S4x256x2048, .f32⟩
  | 62 => ⟨S4x256x2048, .f32⟩
  | 63 => ⟨S4x256x2048, .f32⟩
  | 64 => ⟨S_, .f32⟩
  | 65 => ⟨S4x256x2048, .f32⟩
  | 66 => ⟨S4x256x2048, .f32⟩
  | 67 => ⟨S_, .f32⟩
  | 68 => ⟨S4x256x2048, .f32⟩
  | 69 => ⟨S4x256x2048, .f32⟩
  | 70 => ⟨S4x256x2048, .f32⟩
  | 71 => ⟨S1x2048x1024, .f32⟩
  | 72 => ⟨S2048x1024, .f32⟩
  | 73 => ⟨S4x256x1024, .f32⟩
  | 74 => ⟨S1x1024, .f32⟩
  | 75 => ⟨S1024, .f32⟩
  | 76 => ⟨S1x1x1024, .f32⟩
  | 77 => ⟨S4x256x1024, .f32⟩
  | 78 => ⟨S4x256x1024, .f32⟩
  | 79 => ⟨S1x1024x2048, .f32⟩
  | 80 => ⟨S1024x2048, .f32⟩
  | 81 => ⟨S4x256x2048, .f32⟩
  | 82 => ⟨S1x2048, .f32⟩
  | 83 => ⟨S2048, .f32⟩
  | 84 => ⟨S1x1x2048, .f32⟩
  | 85 => ⟨S4x256x2048, .f32⟩
  | 86 => ⟨S4x256x2048, .f32⟩
  | 87 => ⟨S4x256x2048, .f32⟩
  | 88 => ⟨S4x256x2048, .f32⟩
  | 89 => ⟨S_, .f32⟩
  | 90 => ⟨S4x256x2048, .f32⟩
  | 91 => ⟨S4x256x2048, .f32⟩
  | 92 => ⟨S4x256x2048, .f32⟩
  | 93 => ⟨S_, .f32⟩
  | 94 => ⟨S4x256x2048, .f32⟩
  | 95 => ⟨S4x256x2048, .f32⟩
  | 96 => ⟨S4x256x2048, .f32⟩
  | 97 => ⟨S_, .f32⟩
  | 98 => ⟨S4x256x2048, .f32⟩
  | 99 => ⟨S4x256x2048, .f32⟩
  | 100 => ⟨S_, .f32⟩
  | 101 => ⟨S4x256x2048, .f32⟩
  | 102 => ⟨S4x256x2048, .f32⟩
  | 103 => ⟨S4x256x2048, .f32⟩
  | 104 => ⟨S1x2048x1024, .f32⟩
  | 105 => ⟨S2048x1024, .f32⟩
  | 106 => ⟨S4x256x1024, .f32⟩
  | 107 => ⟨S1x1024, .f32⟩
  | 108 => ⟨S1024, .f32⟩
  | 109 => ⟨S1x1x1024, .f32⟩
  | 110 => ⟨S4x256x1024, .f32⟩
  | 111 => ⟨S4x256x1024, .f32⟩
  | 112 => ⟨S1x1024x2048, .f32⟩
  | 113 => ⟨S1024x2048, .f32⟩
  | 114 => ⟨S4x256x2048, .f32⟩
  | 115 => ⟨S1x2048, .f32⟩
  | 116 => ⟨S2048, .f32⟩
  | 117 => ⟨S1x1x2048, .f32⟩
  | 118 => ⟨S4x256x2048, .f32⟩
  | 119 => ⟨S4x256x2048, .f32⟩
  | 120 => ⟨S4x256x2048, .f32⟩
  | 121 => ⟨S4x256x2048, .f32⟩
  | 122 => ⟨S_, .f32⟩
  | 123 => ⟨S4x256x2048, .f32⟩
  | 124 => ⟨S4x256x2048, .f32⟩
  | 125 => ⟨S4x256x2048, .f32⟩
  | 126 => ⟨S_, .f32⟩
  | 127 => ⟨S4x256x2048, .f32⟩
  | _ => ⟨S4x2048x1024, .f32⟩

abbrev hbmTy0_1 (i : Nat) : BufTy := match i % 128 with
  | 0 => ⟨S4x256x2048, .f32⟩
  | 1 => ⟨S4x256x2048, .f32⟩
  | 2 => ⟨S_, .f32⟩
  | 3 => ⟨S4x256x2048, .f32⟩
  | 4 => ⟨S4x256x2048, .f32⟩
  | 5 => ⟨S_, .f32⟩
  | 6 => ⟨S4x256x2048, .f32⟩
  | 7 => ⟨S4x256x2048, .f32⟩
  | 8 => ⟨S4x256x2048, .f32⟩
  | 9 => ⟨S1x2048x1024, .f32⟩
  | 10 => ⟨S2048x1024, .f32⟩
  | 11 => ⟨S4x256x1024, .f32⟩
  | 12 => ⟨S1x1024, .f32⟩
  | 13 => ⟨S1024, .f32⟩
  | 14 => ⟨S1x1x1024, .f32⟩
  | 15 => ⟨S4x256x1024, .f32⟩
  | 16 => ⟨S4x256x1024, .f32⟩
  | 17 => ⟨S1x1024x2048, .f32⟩
  | 18 => ⟨S1024x2048, .f32⟩
  | 19 => ⟨S4x256x2048, .f32⟩
  | 20 => ⟨S1x2048, .f32⟩
  | 21 => ⟨S2048, .f32⟩
  | 22 => ⟨S1x1x2048, .f32⟩
  | 23 => ⟨S4x256x2048, .f32⟩
  | 24 => ⟨S4x256x2048, .f32⟩
  | 25 => ⟨S4x256x2048, .f32⟩
  | 26 => ⟨S4x256x2048, .f32⟩
  | 27 => ⟨S_, .f32⟩
  | 28 => ⟨S4x256x2048, .f32⟩
  | 29 => ⟨S4x256x2048, .f32⟩
  | 30 => ⟨S4x256x2048, .f32⟩
  | 31 => ⟨S_, .f32⟩
  | 32 => ⟨S4x256x2048, .f32⟩
  | 33 => ⟨S4x256x2048, .f32⟩
  | 34 => ⟨S4x256x2048, .f32⟩
  | 35 => ⟨S_, .f32⟩
  | 36 => ⟨S4x256x2048, .f32⟩
  | 37 => ⟨S4x256x2048, .f32⟩
  | 38 => ⟨S_, .f32⟩
  | 39 => ⟨S4x256x2048, .f32⟩
  | 40 => ⟨S4x256x2048, .f32⟩
  | 41 => ⟨S4x256x2048, .f32⟩
  | 42 => ⟨S1x2048x1024, .f32⟩
  | 43 => ⟨S2048x1024, .f32⟩
  | 44 => ⟨S4x256x1024, .f32⟩
  | 45 => ⟨S1x1024, .f32⟩
  | 46 => ⟨S1024, .f32⟩
  | 47 => ⟨S1x1x1024, .f32⟩
  | 48 => ⟨S4x256x1024, .f32⟩
  | 49 => ⟨S4x256x1024, .f32⟩
  | 50 => ⟨S1x1024x2048, .f32⟩
  | 51 => ⟨S1024x2048, .f32⟩
  | 52 => ⟨S4x256x2048, .f32⟩
  | 53 => ⟨S1x2048, .f32⟩
  | 54 => ⟨S2048, .f32⟩
  | 55 => ⟨S1x1x2048, .f32⟩
  | 56 => ⟨S4x256x2048, .f32⟩
  | 57 => ⟨S4x256x2048, .f32⟩
  | 58 => ⟨S4x256x2048, .f32⟩
  | 59 => ⟨S4x256x2048, .f32⟩
  | 60 => ⟨S_, .f32⟩
  | 61 => ⟨S4x256x2048, .f32⟩
  | 62 => ⟨S4x256x2048, .f32⟩
  | 63 => ⟨S4x256x2048, .f32⟩
  | 64 => ⟨S_, .f32⟩
  | 65 => ⟨S4x256x2048, .f32⟩
  | 66 => ⟨S4x256x2048, .f32⟩
  | 67 => ⟨S4x256x2048, .f32⟩
  | 68 => ⟨S_, .f32⟩
  | 69 => ⟨S4x256x2048, .f32⟩
  | 70 => ⟨S4x256x2048, .f32⟩
  | 71 => ⟨S_, .f32⟩
  | 72 => ⟨S4x256x2048, .f32⟩
  | 73 => ⟨S4x256x2048, .f32⟩
  | 74 => ⟨S4x256x2048, .f32⟩
  | 75 => ⟨S1x2048x1024, .f32⟩
  | 76 => ⟨S2048x1024, .f32⟩
  | 77 => ⟨S4x256x1024, .f32⟩
  | 78 => ⟨S1x1024, .f32⟩
  | 79 => ⟨S1024, .f32⟩
  | 80 => ⟨S1x1x1024, .f32⟩
  | 81 => ⟨S4x256x1024, .f32⟩
  | 82 => ⟨S4x256x1024, .f32⟩
  | 83 => ⟨S1x1024x2048, .f32⟩
  | 84 => ⟨S1024x2048, .f32⟩
  | 85 => ⟨S4x256x2048, .f32⟩
  | 86 => ⟨S1x2048, .f32⟩
  | 87 => ⟨S2048, .f32⟩
  | 88 => ⟨S1x1x2048, .f32⟩
  | 89 => ⟨S4x256x2048, .f32⟩
  | 90 => ⟨S4x256x2048, .f32⟩
  | 91 => ⟨S4x256x2048, .f32⟩
  | 92 => ⟨S4x256x2048, .f32⟩
  | 93 => ⟨S_, .f32⟩
  | 94 => ⟨S4x256x2048, .f32⟩
  | 95 => ⟨S4x256x2048, .f32⟩
  | 96 => ⟨S4x256x2048, .f32⟩
  | 97 => ⟨S_, .f32⟩
  | 98 => ⟨S4x256x2048, .f32⟩
  | 99 => ⟨S4x256x2048, .f32⟩
  | 100 => ⟨S4x256x2048, .f32⟩
  | 101 => ⟨S_, .f32⟩
  | 102 => ⟨S4x256x2048, .f32⟩
  | 103 => ⟨S4x256x2048, .f32⟩
  | 104 => ⟨S_, .f32⟩
  | 105 => ⟨S4x256x2048, .f32⟩
  | 106 => ⟨S4x256x2048, .f32⟩
  | 107 => ⟨S4x256x2048, .f32⟩
  | 108 => ⟨S1x2048x1024, .f32⟩
  | 109 => ⟨S2048x1024, .f32⟩
  | 110 => ⟨S4x256x1024, .f32⟩
  | 111 => ⟨S1x1024, .f32⟩
  | 112 => ⟨S1024, .f32⟩
  | 113 => ⟨S1x1x1024, .f32⟩
  | 114 => ⟨S4x256x1024, .f32⟩
  | 115 => ⟨S4x256x1024, .f32⟩
  | 116 => ⟨S1x1024x2048, .f32⟩
  | 117 => ⟨S1024x2048, .f32⟩
  | 118 => ⟨S4x256x2048, .f32⟩
  | 119 => ⟨S1x2048, .f32⟩
  | 120 => ⟨S2048, .f32⟩
  | 121 => ⟨S1x1x2048, .f32⟩
  | 122 => ⟨S4x256x2048, .f32⟩
  | 123 => ⟨S4x256x2048, .f32⟩
  | 124 => ⟨S4x256x2048, .f32⟩
  | 125 => ⟨S4x256x2048, .f32⟩
  | 126 => ⟨S_, .f32⟩
  | 127 => ⟨S4x256x2048, .f32⟩
  | _ => ⟨S4x2048x1024, .f32⟩

abbrev hbmTy0_2 (i : Nat) : BufTy := match i % 128 with
  | 0 => ⟨S4x256x2048, .f32⟩
  | 1 => ⟨S4x256x2048, .f32⟩
  | 2 => ⟨S_, .f32⟩
  | 3 => ⟨S4x256x2048, .f32⟩
  | 4 => ⟨S4x256x2048, .f32⟩
  | 5 => ⟨S4x256x2048, .f32⟩
  | 6 => ⟨S_, .f32⟩
  | 7 => ⟨S4x256x2048, .f32⟩
  | 8 => ⟨S4x256x2048, .f32⟩
  | 9 => ⟨S_, .f32⟩
  | 10 => ⟨S4x256x2048, .f32⟩
  | 11 => ⟨S4x256x2048, .f32⟩
  | 12 => ⟨S4x256x2048, .f32⟩
  | 13 => ⟨S1x2048x1024, .f32⟩
  | 14 => ⟨S2048x1024, .f32⟩
  | 15 => ⟨S4x256x1024, .f32⟩
  | 16 => ⟨S1x1024, .f32⟩
  | 17 => ⟨S1024, .f32⟩
  | 18 => ⟨S1x1x1024, .f32⟩
  | 19 => ⟨S4x256x1024, .f32⟩
  | 20 => ⟨S4x256x1024, .f32⟩
  | 21 => ⟨S4x2048x1024, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_8 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_9 : Ref sig .tc := ⟨.hbm, 97, rfl⟩
abbrev main_v82 : Ref sig .tc := ⟨.hbm, 98, rfl⟩
abbrev main_v83 : Ref sig .tc := ⟨.hbm, 99, rfl⟩
abbrev main_cst_10 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_cst_11 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_12 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_13 : Ref sig .tc := ⟨.hbm, 130, rfl⟩
abbrev main_v111 : Ref sig .tc := ⟨.hbm, 131, rfl⟩
abbrev main_v112 : Ref sig .tc := ⟨.hbm, 132, rfl⟩
abbrev main_cst_14 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_cst_15 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_cst_16 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_cst_17 : Ref sig .tc := ⟨.hbm, 163, rfl⟩
abbrev main_v140 : Ref sig .tc := ⟨.hbm, 164, rfl⟩
abbrev main_v141 : Ref sig .tc := ⟨.hbm, 165, rfl⟩
abbrev main_cst_18 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_cst_19 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_cst_20 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_cst_21 : Ref sig .tc := ⟨.hbm, 196, rfl⟩
abbrev main_v169 : Ref sig .tc := ⟨.hbm, 197, rfl⟩
abbrev main_v170 : Ref sig .tc := ⟨.hbm, 198, rfl⟩
abbrev main_cst_22 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_cst_23 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_cst_24 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_cst_25 : Ref sig .tc := ⟨.hbm, 229, rfl⟩
abbrev main_v198 : Ref sig .tc := ⟨.hbm, 230, rfl⟩
abbrev main_v199 : Ref sig .tc := ⟨.hbm, 231, rfl⟩
abbrev main_cst_26 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_cst_27 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_cst_28 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_cst_29 : Ref sig .tc := ⟨.hbm, 262, rfl⟩
abbrev main_v227 : Ref sig .tc := ⟨.hbm, 263, rfl⟩
abbrev main_v228 : Ref sig .tc := ⟨.hbm, 264, rfl⟩
abbrev main_cst_30 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩

abbrev nD : Nat := 1
abbrev τ : Topo := Topo.v7x

variable {F : FTy → Type} [FloatOps F]

class Facts₀ : Prop where
  slices_S4x2048x1024_S4x256x1024_0_0_0 : S4x2048x1024.Slices ![0, 0, 0] S4x256x1024
  slices_S4x2048x1024_S4x256x1024_0_256_0 : S4x2048x1024.Slices ![0, 256, 0] S4x256x1024
  slices_S4x2048x1024_S4x256x1024_0_512_0 : S4x2048x1024.Slices ![0, 512, 0] S4x256x1024
  slices_S4x2048x1024_S4x256x1024_0_768_0 : S4x2048x1024.Slices ![0, 768, 0] S4x256x1024
  slices_S4x2048x1024_S4x256x1024_0_1024_0 : S4x2048x1024.Slices ![0, 1024, 0] S4x256x1024
  slices_S4x2048x1024_S4x256x1024_0_1280_0 : S4x2048x1024.Slices ![0, 1280, 0] S4x256x1024
  slices_S4x2048x1024_S4x256x1024_0_1536_0 : S4x2048x1024.Slices ![0, 1536, 0] S4x256x1024
  slices_S4x2048x1024_S4x256x1024_0_1792_0 : S4x2048x1024.Slices ![0, 1792, 0] S4x256x1024
  slices_S8x1024x2048_S1x1024x2048_0_0_0 : S8x1024x2048.Slices ![0, 0, 0] S1x1024x2048
  shapeCasts_S1x1024x2048_S1024x2048 : S1x1024x2048.ShapeCasts S1024x2048
  slices_S8x2048_S1x2048_0_0 : S8x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S4x256x2048_0_1_2 : S1x1x2048.BroadcastsInDim S4x256x2048 (![0, 1, 2] : Fin 3 → Fin S4x256x2048.rank)
  bcast_S_S4x256x2048 : S_.BroadcastsInDim S4x256x2048 (![] : Fin 0 → Fin S4x256x2048.rank)
  slices_S8x2048x1024_S1x2048x1024_0_0_0 : S8x2048x1024.Slices ![0, 0, 0] S1x2048x1024
  shapeCasts_S1x2048x1024_S2048x1024 : S1x2048x1024.ShapeCasts S2048x1024
  slices_S8x1024_S1x1024_0_0 : S8x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S4x256x1024_0_1_2 : S1x1x1024.BroadcastsInDim S4x256x1024 (![0, 1, 2] : Fin 3 → Fin S4x256x1024.rank)
  slices_S8x1024x2048_S1x1024x2048_1_0_0 : S8x1024x2048.Slices ![1, 0, 0] S1x1024x2048
  slices_S8x2048_S1x2048_1_0 : S8x2048.Slices ![1, 0] S1x2048
  slices_S8x2048x1024_S1x2048x1024_1_0_0 : S8x2048x1024.Slices ![1, 0, 0] S1x2048x1024
  slices_S8x1024_S1x1024_1_0 : S8x1024.Slices ![1, 0] S1x1024
  slices_S8x1024x2048_S1x1024x2048_2_0_0 : S8x1024x2048.Slices ![2, 0, 0] S1x1024x2048
  slices_S8x2048_S1x2048_2_0 : S8x2048.Slices ![2, 0] S1x2048
  slices_S8x2048x1024_S1x2048x1024_2_0_0 : S8x2048x1024.Slices ![2, 0, 0] S1x2048x1024
  slices_S8x1024_S1x1024_2_0 : S8x1024.Slices ![2, 0] S1x1024
  slices_S8x1024x2048_S1x1024x2048_3_0_0 : S8x1024x2048.Slices ![3, 0, 0] S1x1024x2048
  slices_S8x2048_S1x2048_3_0 : S8x2048.Slices ![3, 0] S1x2048
  slices_S8x2048x1024_S1x2048x1024_3_0_0 : S8x2048x1024.Slices ![3, 0, 0] S1x2048x1024
  slices_S8x1024_S1x1024_3_0 : S8x1024.Slices ![3, 0] S1x1024
  slices_S8x1024x2048_S1x1024x2048_4_0_0 : S8x1024x2048.Slices ![4, 0, 0] S1x1024x2048
  slices_S8x2048_S1x2048_4_0 : S8x2048.Slices ![4, 0] S1x2048
  slices_S8x2048x1024_S1x2048x1024_4_0_0 : S8x2048x1024.Slices ![4, 0, 0] S1x2048x1024
  slices_S8x1024_S1x1024_4_0 : S8x1024.Slices ![4, 0] S1x1024
  slices_S8x1024x2048_S1x1024x2048_5_0_0 : S8x1024x2048.Slices ![5, 0, 0] S1x1024x2048
  slices_S8x2048_S1x2048_5_0 : S8x2048.Slices ![5, 0] S1x2048
  slices_S8x2048x1024_S1x2048x1024_5_0_0 : S8x2048x1024.Slices ![5, 0, 0] S1x2048x1024
  slices_S8x1024_S1x1024_5_0 : S8x1024.Slices ![5, 0] S1x1024
  slices_S8x1024x2048_S1x1024x2048_6_0_0 : S8x1024x2048.Slices ![6, 0, 0] S1x1024x2048
  slices_S8x2048_S1x2048_6_0 : S8x2048.Slices ![6, 0] S1x2048
  slices_S8x2048x1024_S1x2048x1024_6_0_0 : S8x2048x1024.Slices ![6, 0, 0] S1x2048x1024
  slices_S8x1024_S1x1024_6_0 : S8x1024.Slices ![6, 0] S1x1024
  slices_S8x1024x2048_S1x1024x2048_7_0_0 : S8x1024x2048.Slices ![7, 0, 0] S1x1024x2048
  slices_S8x2048_S1x2048_7_0 : S8x2048.Slices ![7, 0] S1x2048
  slices_S8x2048x1024_S1x2048x1024_7_0_0 : S8x2048x1024.Slices ![7, 0, 0] S1x2048x1024
  slices_S8x1024_S1x1024_7_0 : S8x1024.Slices ![7, 0] S1x1024
  concatenates_S4x256x1024_S4x256x1024_S4x256x1024_S4x256x1024_S4x256x1024_S4x256x1024_S4x256x1024_S4x256x1024_S4x2048x1024_d1 : Shape.Concatenates [S4x256x1024, S4x256x1024, S4x256x1024, S4x256x1024, S4x256x1024, S4x256x1024, S4x256x1024, S4x256x1024] S4x2048x1024 1
  dot_S4x256x1024_S1024x2048_S4x256x2048_2_0_01_1_n_n_wf : DotDims.WF S4x256x1024 S1024x2048 S4x256x2048 [2] [0] [0, 1] [1] [] []
  dot_S4x256x2048_S2048x1024_S4x256x1024_2_0_01_1_n_n_wf : DotDims.WF S4x256x2048 S2048x1024 S4x256x1024 [2] [0] [0, 1] [1] [] []

variable [Facts₀]

def dot_S4x256x1024_S1024x2048_S4x256x2048_2_0_01_1_n_n : DotDims S4x256x1024 S1024x2048 S4x256x2048 where
  lhsContracting := [2]
  rhsContracting := [0]
  lhsNonContracting := [0, 1]
  rhsNonContracting := [1]
  lhsBatch := []
  rhsBatch := []
  wf := dot_S4x256x1024_S1024x2048_S4x256x2048_2_0_01_1_n_n_wf
def dot_S4x256x2048_S2048x1024_S4x256x1024_2_0_01_1_n_n : DotDims S4x256x2048 S2048x1024 S4x256x1024 where
  lhsContracting := [2]
  rhsContracting := [0]
  lhsNonContracting := [0, 1]
  rhsNonContracting := [1]
  lhsBatch := []
  rhsBatch := []
  wf := dot_S4x256x2048_S2048x1024_S4x256x1024_2_0_01_1_n_n_wf

class Facts : Prop extends Facts₀ where

variable [Facts]
-- ==== Proof.Spec.lean ====
/-
  The function both programs compute, stated once over literal shapes.

  A batch of tokens `X[g, n, :]` (4 groups of 2048 rows of width 1024) is routed by POSITION: row `n` belongs to expert
  `n / 256` (eight experts, 256 consecutive rows each). Each expert is a two-layer network with its own weights: the row
  times `W1[e]` (1024 × 2048) plus the bias `B1[e]`, the tanh-approximate GELU, then times `W2[e]` (2048 × 1024) plus the
  bias `B2[e]`. Element `(g, n, d)` of the result is

      Σ_f gelu(Σ_k X[g, n, k] · W1[e, k, f] + B1[e, f]) · W2[e, f, d] + B2[e, d],   e = n / 256,

  on the extended reals. Nothing here depends on how the rows are tiled: the kernel visits 128 rows of one expert per
  grid point, the reference slices out each expert's 256 rows and concatenates the eight results.
-/
import Idealize.ShloMosaic.PureOps.Ideal
import Idealize.ShloMosaic.Lib.ValueIdx

noncomputable section

open scoped BigOperators

namespace Cert.ExpertFfn

open Idealize.ShloMosaic Idealize.ShloMosaic.ValueIdx

/-- The tanh-approximate GELU on the extended reals, `h · (½ · (1 + tanh(c₂ · (h + c₁ · h³))))`, its four float constants
    kept as the bit patterns both programs print (½, 1, ≈0.7979, ≈0.044715): the same words on both sides are never
    evaluated. The cube is written `h · (h · h)`. -/
def gelu (h : EReal) : EReal :=
  h * (Ideal.ofBits .f32 0x3F000000#32 * (Ideal.ofBits .f32 0x3F800000#32 +
    Ideal.tanh (Ideal.ofBits .f32 0x3F4C422A#32 * (h + Ideal.ofBits .f32 0x3D372713#32 * (h * (h * h))))))

/-- The same with the cube written `(h · h) · h`: multiplication of extended reals commutes. -/
theorem gelu_cube_left (h : EReal) :
    h * (Ideal.ofBits .f32 0x3F000000#32 * (Ideal.ofBits .f32 0x3F800000#32 +
      Ideal.tanh (Ideal.ofBits .f32 0x3F4C422A#32 * (h + Ideal.ofBits .f32 0x3D372713#32 * ((h * h) * h))))) = gelu h := by
  unfold gelu; rw [mul_comm (h * h) h]

/-- One token row through one expert, read at one output column: `x` the row, `w1` the first layer's matrix, `b1` its
    bias, `w2` the second layer's column for this output, `b2` its bias there. -/
def ffn {K N : Nat} (x : Fin K → EReal) (w1 : Fin K → Fin N → EReal) (b1 : Fin N → EReal) (w2 : Fin N → EReal)
    (b2 : EReal) : EReal :=
  (∑ f : Fin N, gelu ((∑ k : Fin K, x k * w1 k f) + b1 f) * w2 f) + b2

/-- Two rows through two experts agree when their data agree entry by entry. -/
theorem ffn_congr {K N : Nat} {x x' : Fin K → EReal} {w1 w1' : Fin K → Fin N → EReal} {b1 b1' : Fin N → EReal}
    {w2 w2' : Fin N → EReal} {b2 b2' : EReal} (hx : ∀ k, x k = x' k) (hw1 : ∀ k f, w1 k f = w1' k f)
    (hb1 : ∀ f, b1 f = b1' f) (hw2 : ∀ f, w2 f = w2' f) (hb2 : b2 = b2') :
    ffn x w1 b1 w2 b2 = ffn x' w1' b1' w2' b2' := by
  obtain rfl : x = x' := funext hx
  obtain rfl : w1 = w1' := funext fun k => funext (hw1 k)
  obtain rfl : b1 = b1' := funext hb1
  obtain rfl : w2 = w2' := funext hw2
  rw [hb2]

/-- The expert of token row `n`: experts own 256 consecutive rows each. -/
def expertOf (n : Fin 2048) : Fin 8 := ⟨n.val / 256, by have := n.isLt; omega⟩

/-- The result at group `g`, row `n`, column `d`. -/
def outAt (X : (⟨3, ![4, 2048, 1024]⟩ : Shape).Idx → EReal) (W1 : (⟨3, ![8, 1024, 2048]⟩ : Shape).Idx → EReal)
    (B1 : (⟨2, ![8, 2048]⟩ : Shape).Idx → EReal) (W2 : (⟨3, ![8, 2048, 1024]⟩ : Shape).Idx → EReal)
    (B2 : (⟨2, ![8, 1024]⟩ : Shape).Idx → EReal) (g : Fin 4) (n : Fin 2048) (d : Fin 1024) : EReal :=
  ffn (fun k : Fin 1024 => X (ix3 g n k)) (fun (k : Fin 1024) (f : Fin 2048) => W1 (ix3 (expertOf n) k f))
    (fun f : Fin 2048 => B1 (ix2 (expertOf n) f)) (fun f : Fin 2048 => W2 (ix3 (expertOf n) f d)) (B2 (ix2 (expertOf n) d))

/-- THE RESULT ARRAY as one function of the five argument arrays, index by index. -/
def result (X : (⟨3, ![4, 2048, 1024]⟩ : Shape).Idx → EReal) (W1 : (⟨3, ![8, 1024, 2048]⟩ : Shape).Idx → EReal)
    (B1 : (⟨2, ![8, 2048]⟩ : Shape).Idx → EReal) (W2 : (⟨3, ![8, 2048, 1024]⟩ : Shape).Idx → EReal)
    (B2 : (⟨2, ![8, 1024]⟩ : Shape).Idx → EReal) : (⟨3, ![4, 2048, 1024]⟩ : Shape).Idx → EReal :=
  fun j => outAt X W1 B1 W2 B2 (j 0) (j 1) (j 2)

theorem result_ix3 (X : (⟨3, ![4, 2048, 1024]⟩ : Shape).Idx → EReal) (W1 : (⟨3, ![8, 1024, 2048]⟩ : Shape).Idx → EReal)
    (B1 : (⟨2, ![8, 2048]⟩ : Shape).Idx → EReal) (W2 : (⟨3, ![8, 2048, 1024]⟩ : Shape).Idx → EReal)
    (B2 : (⟨2, ![8, 1024]⟩ : Shape).Idx → EReal) (g : Fin 4) (n : Fin 2048) (d : Fin 1024) :
    result X W1 B1 W2 B2 (ix3 g n d) = outAt X W1 B1 W2 B2 g n d := rfl

end Cert.ExpertFfn

end
-- ==== Proof.LibContract.lean ====
/-
  Two contractions read at an index, at the ideal values, as plain sums over the contracted coordinate.

  A matrix product `[M, K] × [K, N]` accumulated into a zero splat (a kernel's `tpu.matmul`) is, at `(p, f)`,
  `Σ_k l[p, k] · r[k, f]`; a stack of rows `[A, B, K]` contracted with one matrix `[K, N]` on its last axis (a host
  `dot_general`, what `einsum('gck,kf->gcf')` lowers to) is, at `(g, b, f)`, `Σ_k l[g, b, k] · r[k, f]`. The dimension
  numbers are taken as a record whose six axis lists are the literal ones and whose well-formedness proof is ANY proof:
  a printed record with those lists is such a record by unfolding, whatever proof it carries.
-/
import Idealize.ShloMosaic.PureOps.Ideal.Laws
import Idealize.ShloMosaic.Lib.ValueIdx

noncomputable section

open scoped BigOperators

namespace Cert.LibContract

open Idealize.ShloMosaic Idealize.ShloMosaic.ValueIdx

/-! ## A matrix product -/

/-- The dimension numbers of `[M, K] × [K, N] → [M, N]`: the left operand contracted on its columns, the right on its
    rows. -/
abbrev matDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Mat
variable {M K N : Nat} (wf : DotDims.WF ⟨2, ![M, K]⟩ ⟨2, ![K, N]⟩ ⟨2, ![M, N]⟩ [1] [0] [0] [1] [] [])

/-- The left operand's row is the result's row. -/
theorem mat_lhs_0 (i : (⟨2, ![M, N]⟩ : Shape).Idx) (q : (matDims M K N wf).contr.Idx) :
    ((matDims M K N wf).lhsIdx i q 0).val = (i 0).val := by
  unfold DotDims.lhsIdx
  rw [dif_neg (show ¬(0 : Fin 2) ∈ (matDims M K N wf).lhsBatch from List.not_mem_nil),
    dif_pos (show (0 : Fin 2) ∈ (matDims M K N wf).lhsNonContracting from List.mem_singleton.mpr rfl)]
  rfl

/-- The left operand's column is the contracted coordinate. -/
theorem mat_lhs_1 (i : (⟨2, ![M, N]⟩ : Shape).Idx) (q : (matDims M K N wf).contr.Idx) :
    ((matDims M K N wf).lhsIdx i q 1).val = (q ⟨0, Nat.one_pos⟩).val :=
  (matDims M K N wf).lhsIdx_val_of_single rfl i q

/-- The right operand's row is the contracted coordinate. -/
theorem mat_rhs_0 (i : (⟨2, ![M, N]⟩ : Shape).Idx) (q : (matDims M K N wf).contr.Idx) :
    ((matDims M K N wf).rhsIdx i q 0).val = (q ⟨0, Nat.one_pos⟩).val :=
  (matDims M K N wf).rhsIdx_val_of_single rfl i q

/-- The right operand's column is the result's column. -/
theorem mat_rhs_1 (i : (⟨2, ![M, N]⟩ : Shape).Idx) (q : (matDims M K N wf).contr.Idx) :
    ((matDims M K N wf).rhsIdx i q 1).val = (i 1).val := by
  unfold DotDims.rhsIdx
  rw [dif_neg (show ¬(1 : Fin 2) ∈ (matDims M K N wf).rhsBatch from List.not_mem_nil),
    dif_pos (show (1 : Fin 2) ∈ (matDims M K N wf).rhsNonContracting from List.mem_singleton.mpr rfl)]
  rfl

/-- A matrix product into the zero splat, at `(p, f)`: the sum over `k` of `l[p, k] · r[k, f]`. -/
theorem matmul_zero_apply {φ₁ φ₂ : FTy} (prec : Option ContractPrecision) (l : FVec Ideal ⟨2, ![M, K]⟩ φ₁)
    (r : FVec Ideal ⟨2, ![K, N]⟩ φ₂) (p : Fin M) (f : Fin N) :
    matmul (matDims M K N wf) prec l r (constant (F := Ideal) ⟨2, ![M, N]⟩ .f32 0x00000000#32) (ix2 p f)
      = ∑ k : Fin K, l (ix2 p k) * r (ix2 k f) := by
  show FloatOps.matmul (matDims M K N wf) prec l r _ (ix2 p f) = _
  rw [Ideal.matmul_constant_zero_apply, ← Equiv.sum_comp (contrEquiv1 (matDims M K N wf) K rfl rfl).symm]
  refine Finset.sum_congr rfl fun k _ => ?_
  have hk := contrEquiv1_symm_val (matDims M K N wf) K rfl rfl k
  have el : (matDims M K N wf).lhsIdx (ix2 p f) ((contrEquiv1 (matDims M K N wf) K rfl rfl).symm k) = ix2 p k :=
    funext fun a => Fin.ext (by
      match a with
      | ⟨0, _⟩ => exact mat_lhs_0 wf _ _
      | ⟨1, _⟩ => exact (mat_lhs_1 wf _ _).trans hk)
  have er : (matDims M K N wf).rhsIdx (ix2 p f) ((contrEquiv1 (matDims M K N wf) K rfl rfl).symm k) = ix2 k f :=
    funext fun a => Fin.ext (by
      match a with
      | ⟨0, _⟩ => exact (mat_rhs_0 wf _ _).trans hk
      | ⟨1, _⟩ => exact mat_rhs_1 wf _ _)
  rw [el, er]

end Mat

/-! ## A stack of rows against one matrix -/

/-- The dimension numbers of `[A, B, K] × [K, N] → [A, B, N]`: the left operand contracted on its last axis, the right on
    its rows, no batch axis. -/
abbrev rowsDims (A B K N : Nat)
    (wf : DotDims.WF ⟨3, ![A, B, K]⟩ ⟨2, ![K, N]⟩ ⟨3, ![A, B, N]⟩ [2] [0] [0, 1] [1] [] []) :
    DotDims ⟨3, ![A, B, K]⟩ ⟨2, ![K, N]⟩ ⟨3, ![A, B, N]⟩ where
  lhsContracting := [2]
  rhsContracting := [0]
  lhsNonContracting := [0, 1]
  rhsNonContracting := [1]
  lhsBatch := []
  rhsBatch := []
  wf := wf

section Rows
variable {A B K N : Nat} (wf : DotDims.WF ⟨3, ![A, B, K]⟩ ⟨2, ![K, N]⟩ ⟨3, ![A, B, N]⟩ [2] [0] [0, 1] [1] [] [])

theorem rows_lhs_0 (i : (⟨3, ![A, B, N]⟩ : Shape).Idx) (q : (rowsDims A B K N wf).contr.Idx) :
    ((rowsDims A B K N wf).lhsIdx i q 0).val = (i 0).val := by
  unfold DotDims.lhsIdx
  rw [dif_neg (show ¬(0 : Fin 3) ∈ (rowsDims A B K N wf).lhsBatch from List.not_mem_nil),
    dif_pos (show (0 : Fin 3) ∈ (rowsDims A B K N wf).lhsNonContracting from List.mem_cons_self)]
  rfl

theorem rows_lhs_1 (i : (⟨3, ![A, B, N]⟩ : Shape).Idx) (q : (rowsDims A B K N wf).contr.Idx) :
    ((rowsDims A B K N wf).lhsIdx i q 1).val = (i 1).val := by
  unfold DotDims.lhsIdx
  rw [dif_neg (show ¬(1 : Fin 3) ∈ (rowsDims A B K N wf).lhsBatch from List.not_mem_nil),
    dif_pos (show (1 : Fin 3) ∈ (rowsDims A B K N wf).lhsNonContracting from List.mem_cons_of_mem _ (List.mem_singleton.mpr rfl))]
  rfl

theorem rows_lhs_2 (i : (⟨3, ![A, B, N]⟩ : Shape).Idx) (q : (rowsDims A B K N wf).contr.Idx) :
    ((rowsDims A B K N wf).lhsIdx i q 2).val = (q ⟨0, Nat.one_pos⟩).val :=
  (rowsDims A B K N wf).lhsIdx_val_of_single rfl i q

theorem rows_rhs_0 (i : (⟨3, ![A, B, N]⟩ : Shape).Idx) (q : (rowsDims A B K N wf).contr.Idx) :
    ((rowsDims A B K N wf).rhsIdx i q 0).val = (q ⟨0, Nat.one_pos⟩).val :=
  (rowsDims A B K N wf).rhsIdx_val_of_single rfl i q

theorem rows_rhs_1 (i : (⟨3, ![A, B, N]⟩ : Shape).Idx) (q : (rowsDims A B K N wf).contr.Idx) :
    ((rowsDims A B K N wf).rhsIdx i q 1).val = (i 2).val := by
  unfold DotDims.rhsIdx
  rw [dif_neg (show ¬(1 : Fin 2) ∈ (rowsDims A B K N wf).rhsBatch from List.not_mem_nil),
    dif_pos (show (1 : Fin 2) ∈ (rowsDims A B K N wf).rhsNonContracting from List.mem_singleton.mpr rfl)]
  rfl

/-- The host's contraction of a stack of rows with one matrix, at `(g, b, f)`: the sum over `k` of
    `l[g, b, k] · r[k, f]`. -/
theorem dotGeneral_rows_apply {φ₁ φ₂ : FTy} (prec : Option ContractPrecision) (l : FVec Ideal ⟨3, ![A, B, K]⟩ φ₁)
    (r : FVec Ideal ⟨2, ![K, N]⟩ φ₂) (g : Fin A) (b : Fin B) (f : Fin N) :
    Host.dotGeneral (rowsDims A B K N wf) prec l r (ix3 g b f) = ∑ k : Fin K, l (ix3 g b k) * r (ix2 k f) := by
  show FloatOps.dotGeneral (rowsDims A B K N wf) prec _ l r (ix3 g b f) = _
  rw [Ideal.dotGeneral_apply, ← Equiv.sum_comp (contrEquiv1 (rowsDims A B K N wf) K rfl rfl).symm]
  refine Finset.sum_congr rfl fun k _ => ?_
  have hk := contrEquiv1_symm_val (rowsDims A B K N wf) K rfl rfl k
  have el : (rowsDims A B K N wf).lhsIdx (ix3 g b f) ((contrEquiv1 (rowsDims A B K N wf) K rfl rfl).symm k) = ix3 g b k :=
    funext fun a => Fin.ext (by
      match a with
      | ⟨0, _⟩ => exact rows_lhs_0 wf _ _
      | ⟨1, _⟩ => exact rows_lhs_1 wf _ _
      | ⟨2, _⟩ => exact (rows_lhs_2 wf _ _).trans hk)
  have er : (rowsDims A B K N wf).rhsIdx (ix3 g b f) ((contrEquiv1 (rowsDims A B K N wf) K rfl rfl).symm k) = ix2 k f :=
    funext fun a => Fin.ext (by
      match a with
      | ⟨0, _⟩ => exact (rows_rhs_0 wf _ _).trans hk
      | ⟨1, _⟩ => exact rows_rhs_1 wf _ _)
  rw [el, er]

end Rows

end Cert.LibContract

end
-- ==== Proof.LibRowsLayout.lean ====
/-
  Layout operations read at an index written by coordinates, for a stack of row blocks `[a, b, c]` handled as one
  matrix `[a·b, c]`: the shape cast that merges the two leading axes and the one that splits them again (row `g·b + r` of
  the matrix is row `r` of block `g`), a rank-3 array cut along its LEADING axis, and a vector spread along the last
  axis of a rank-3 array in two broadcasts (`[n] → [1, 1, n] → [a, b, n]`: what adding a bias row to a stack of rows
  lowers to on the host).
-/
import Idealize.ShloMosaic.Lib.Pipeline.Value
import Idealize.ShloMosaic.Lib.ValueIdx

namespace Cert.LibRowsLayout

open Idealize.ShloMosaic Idealize.ShloMosaic.ValueIdx

variable {α : Type}

/-- An `[a, b, c]` array cast to a matrix `[m, c]` (`m = a·b`) reads, at `(p, d)` with `p = g·b + r`, the operand at
    `(g, r, d)`: the two have the same row-major position. -/
theorem shapeCast_merge_apply {a b c m : ℕ} (x : (⟨3, ![a, b, c]⟩ : Shape).Idx → α)
    (h : (⟨3, ![a, b, c]⟩ : Shape).ShapeCasts ⟨2, ![m, c]⟩) (g : Fin a) (r : Fin b) (d : Fin c) (p : Fin m)
    (hp : p.val = g.val * b + r.val) :
    shapeCast ⟨2, ![m, c]⟩ x h (ix2 p d) = x (ix3 g r d) :=
  shapeCast_apply x h _ _ (by
    rw [Shape.rowMajor_val_three, Shape.rowMajor_val_two]
    show (g.val * b + r.val) * c + d.val = p.val * c + d.val
    rw [hp])

/-- A matrix `[m, c]` (`m = a·b`) cast to `[a, b, c]` reads, at `(g, r, d)`, the operand at `(p, d)` with `p = g·b + r`. -/
theorem shapeCast_split_apply {a b c m : ℕ} (x : (⟨2, ![m, c]⟩ : Shape).Idx → α)
    (h : (⟨2, ![m, c]⟩ : Shape).ShapeCasts ⟨3, ![a, b, c]⟩) (g : Fin a) (r : Fin b) (d : Fin c) (p : Fin m)
    (hp : p.val = g.val * b + r.val) :
    shapeCast ⟨3, ![a, b, c]⟩ x h (ix3 g r d) = x (ix2 p d) :=
  shapeCast_apply x h _ _ (by
    rw [Shape.rowMajor_val_three, Shape.rowMajor_val_two]
    show p.val * c + d.val = (g.val * b + r.val) * c + d.val
    rw [hp])

/-- A rank-3 array cut along its leading axis from `o` reads, at `(j, a, e)`, the source at `(o + j, a, e)`. -/
theorem slice3_axis0_eq {n0 n1 n2 m : ℕ} (o : ℕ) (X : (⟨3, ![n0, n1, n2]⟩ : Shape).Idx → α)
    (h : (⟨3, ![n0, n1, n2]⟩ : Shape).Slices ![o, 0, 0] ⟨3, ![m, n1, n2]⟩) (j : Fin m) (a : Fin n1) (e : Fin n2) :
    extractStridedSlice ⟨3, ![m, n1, n2]⟩ ![o, 0, 0] X h (ix3 j a e)
      = X (ix3 ⟨o + j.val, Nat.lt_of_lt_of_le (Nat.add_lt_add_left j.isLt o) (h.2 0)⟩ a e) :=
  extractStridedSlice_apply _ _ _ _ _ (fun ax => by
    match ax with
    | ⟨0, _⟩ => rfl
    | ⟨1, _⟩ => exact (Nat.zero_add _).symm
    | ⟨2, _⟩ => exact (Nat.zero_add _).symm)

/-- A vector of `n` entries laid along the last axis of `[1, 1, n]` and then spread over `[a, b, n]` reads, at
    `(g, r, f)`, its entry `f`. -/
theorem broadcast_lastAxis_apply {a b n : ℕ} (v : (⟨1, ![n]⟩ : Shape).Idx → α)
    (h1 : (⟨1, ![n]⟩ : Shape).BroadcastsInDim ⟨3, ![1, 1, n]⟩ ![2])
    (h2 : (⟨3, ![1, 1, n]⟩ : Shape).BroadcastsInDim ⟨3, ![a, b, n]⟩ ![0, 1, 2]) (g : Fin a) (r : Fin b) (f : Fin n) :
    broadcastInDim ⟨3, ![a, b, n]⟩ ![0, 1, 2] h2 (broadcastInDim ⟨3, ![1, 1, n]⟩ ![2] h1 v) (ix3 g r f) = v (ix1 f) := by
  refine (broadcastInDim_apply ![0, 1, 2] h2 _ (ix3 g r f) (ix3 (0 : Fin 1) (0 : Fin 1) f) fun ax => ?_).trans
    (broadcastInDim_apply ![2] h1 v (ix3 (0 : Fin 1) (0 : Fin 1) f) (ix1 f) fun ax => ?_)
  · match ax with
    | ⟨0, _⟩ => rfl
    | ⟨1, _⟩ => rfl
    | ⟨2, _⟩ =>
      show f.val = if n = 1 then 0 else f.val
      split
      · have := f.isLt; omega
      · rfl
  · match ax with
    | ⟨0, _⟩ =>
      show f.val = if n = 1 then 0 else f.val
      split
      · have := f.isLt; omega
      · rfl

end Cert.LibRowsLayout
-- ==== Proof.KernelPayload.lean ====
/-
  What one grid point's body computes, read at one element of the block it stores.

  The body takes a block of 4 × 128 token rows (all of one expert), that expert's two weight matrices and two bias rows,
  flattens the rows to a 512 × 1024 matrix, multiplies by the first matrix, adds the first bias to every row, applies
  the tanh-approximate GELU, multiplies by the second matrix, adds the second bias and folds the 512 rows back to
  4 × 128. Row `g·128 + r` of the flattened matrix is row `r` of group `g`, so element `(g, r, d)` of the stored block is
  the two-layer network `ffn` of the block's row `(g, r)` at column `d`.
-/
import proofs.«135930_g33535104647681_retrytranche2_1941_10_alg».proof.Proof.Gen.KernelIdeal.Skeleton
import proofs.«135930_g33535104647681_retrytranche2_1941_10_alg».proof.Proof.Spec
import proofs.«135930_g33535104647681_retrytranche2_1941_10_alg».proof.Proof.LibContract
import proofs.«135930_g33535104647681_retrytranche2_1941_10_alg».proof.Proof.LibRowsLayout
import Idealize.ShloMosaic.Lib.ValueLayout

noncomputable section

open scoped BigOperators

namespace Cert.KernelIdeal.Hand

open Cert.KernelIdeal Cert.KernelIdeal.Gen Idealize.ShloMosaic Idealize.ShloMosaic.ValueIdx
open Cert.ExpertFfn Cert.LibContract Cert.LibRowsLayout

/-- The activation, element by element: the body's chain of products and sums around `tanh` is `gelu`. -/
theorem act_apply (h : FVec Ideal S512x2048 .f32) (i : S512x2048.Idx) :
    mulf h (mulf (broadcast S512x2048 (Scalar.ofBits (F := Ideal) .f32 0x3F000000#32))
      (addf (broadcast S512x2048 (Scalar.ofBits (F := Ideal) .f32 0x3F800000#32))
        (tanh (mulf (broadcast S512x2048 (Scalar.ofBits (F := Ideal) .f32 0x3F4C422A#32))
          (addf h (mulf (broadcast S512x2048 (Scalar.ofBits (F := Ideal) .f32 0x3D372713#32)) (mulf h (mulf h h)))))))) i
      = gelu (h i) := rfl

/-- The first layer before the activation, at row `p = g·128 + r` of the flattened block and hidden column `f`. -/
theorem hidden_apply (x0 : FVec Ideal S4x128x1024 .f32) (x1 : FVec Ideal S1x1024x2048 .f32) (x2 : FVec Ideal S1x1x2048 .f32)
    (wf1 : DotDims.WF S512x1024 S1024x2048 S512x2048 [1] [0] [0] [1] [] [])
    (sc0 : S4x128x1024.ShapeCasts S512x1024) (sc1 : S1x1024x2048.ShapeCasts S1024x2048)
    (sc2 : S1x1x2048.ShapeCasts S1x2048) (bc : S1x2048.Broadcasts S512x2048)
    (g : Fin 4) (r : Fin 128) (p : Fin 512) (hp : p.val = g.val * 128 + r.val) (f : Fin 2048) :
    addf (matmul (matDims 512 1024 2048 wf1) none (shapeCast S512x1024 x0 sc0) (shapeCast S1024x2048 x1 sc1)
        (constant (F := Ideal) S512x2048 .f32 0x00000000#32))
      (broadcastTo S512x2048 (shapeCast S1x2048 x2 sc2) bc) (ix2 p f)
      = (∑ k : Fin 1024, x0 (ix3 g r k) * x1 (ix3 (0 : Fin 1) k f)) + x2 (ix3 (0 : Fin 1) (0 : Fin 1) f) := by
  rw [addf_apply, matmul_zero_apply, broadcastTo_1b_ab_apply, shapeCast_1ab_ab_apply]
  refine congrArg (· + x2 (ix3 (0 : Fin 1) (0 : Fin 1) f)) (Finset.sum_congr rfl fun k _ => ?_)
  rw [shapeCast_merge_apply x0 sc0 g r k p hp, shapeCast_1ab_ab_apply]

/-- The second layer, folded back to the block's shape, at `(g, r, d)`: over any activated matrix `a`. -/
theorem out_apply (a : FVec Ideal S512x2048 .f32) (x3 : FVec Ideal S1x2048x1024 .f32) (x4 : FVec Ideal S1x1x1024 .f32)
    (wf2 : DotDims.WF S512x2048 S2048x1024 S512x1024 [1] [0] [0] [1] [] [])
    (sc3 : S1x2048x1024.ShapeCasts S2048x1024) (sc4 : S1x1x1024.ShapeCasts S1x1024)
    (bc2 : S1x1024.Broadcasts S512x1024) (sc5 : S512x1024.ShapeCasts S4x128x1024)
    (g : Fin 4) (r : Fin 128) (p : Fin 512) (hp : p.val = g.val * 128 + r.val) (d : Fin 1024) :
    shapeCast S4x128x1024 (addf (matmul (matDims 512 2048 1024 wf2) none a (shapeCast S2048x1024 x3 sc3)
        (constant (F := Ideal) S512x1024 .f32 0x00000000#32))
      (broadcastTo S512x1024 (shapeCast S1x1024 x4 sc4) bc2)) sc5 (ix3 g r d)
      = (∑ f : Fin 2048, a (ix2 p f) * x3 (ix3 (0 : Fin 1) f d)) + x4 (ix3 (0 : Fin 1) (0 : Fin 1) d) := by
  rw [shapeCast_split_apply _ sc5 g r d p hp, addf_apply, matmul_zero_apply, broadcastTo_1b_ab_apply,
    shapeCast_1ab_ab_apply]
  refine congrArg (· + x4 (ix3 (0 : Fin 1) (0 : Fin 1) d)) (Finset.sum_congr rfl fun f _ => ?_)
  rw [shapeCast_1ab_ab_apply]

/-- THE BODY'S STORED VALUE at `(g, r, d)`: the network `ffn` of the token block's row `(g, r)`, through the expert's
    weights and biases as loaded (each a block with a leading unit axis), at column `d`. -/
theorem pay_apply (x0 : Vec Ideal S4x128x1024 .f32) (x1 : Vec Ideal S1x1024x2048 .f32) (x2 : Vec Ideal S1x1x2048 .f32)
    (x3 : Vec Ideal S1x2048x1024 .f32) (x4 : Vec Ideal S1x1x1024 .f32) (g : Fin 4) (r : Fin 128) (d : Fin 1024) :
    k0_pay1 (F := Ideal) x0 x1 x2 x3 x4 (ix3 g r d)
      = ffn (fun k : Fin 1024 => x0 (ix3 g r k)) (fun (k : Fin 1024) (f : Fin 2048) => x1 (ix3 (0 : Fin 1) k f))
          (fun f : Fin 2048 => x2 (ix3 (0 : Fin 1) (0 : Fin 1) f)) (fun f : Fin 2048 => x3 (ix3 (0 : Fin 1) f d))
          (x4 (ix3 (0 : Fin 1) (0 : Fin 1) d)) := by
  have hp : (⟨g.val * 128 + r.val, by have := g.isLt; have := r.isLt; omega⟩ : Fin 512).val = g.val * 128 + r.val := rfl
  unfold k0_pay1
  refine (out_apply _ x3 x4 _ _ _ _ _ g r _ hp d).trans ?_
  unfold ffn
  refine congrArg (· + x4 (ix3 (0 : Fin 1) (0 : Fin 1) d)) (Finset.sum_congr rfl fun f _ => ?_)
  refine congrArg (· * x3 (ix3 (0 : Fin 1) f d)) ?_
  refine (act_apply _ _).trans (congrArg gelu ?_)
  exact hidden_apply x0 x1 x2 _ _ _ _ _ g r _ hp f

end Cert.KernelIdeal.Hand

end
-- ==== Proof.KernelBlocks.lean ====
/-
  The idealized kernel's result array after the run, as ONE function of the argument arrays.

  The grid has 16 points; point `t` handles token rows `128·t … 128·t + 127` of every group — all rows of expert `t / 2` —
  and stages that expert's matrices and bias rows (the biases as `[8, 1, ·]` arrays the host reshaped before the call).
  So each input block is the matching rows, or the expert's slab, of an argument array, and what the point writes back
  (the body's stored value, `pay_apply`) is block `t` of the specification's `result`. The 16 blocks tile the output's
  2048 rows, hence the array ends holding `result` of the arguments.
-/
import proofs.«135930_g33535104647681_retrytranche2_1941_10_alg».proof.Proof.Gen.KernelIdeal.Value
import proofs.«135930_g33535104647681_retrytranche2_1941_10_alg».proof.Proof.KernelPayload
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.ExpertFfn

variable (m : (ℓ : Loc nD τ sig) → Buf (Elt Ideal) ℓ) (ρ : Dev nD → PrngReg)

theorem zero_offsets : (![0, 0, 0] : Fin 3 → Nat) = fun _ => 0 := funext fun a => by fin_cases a <;> rfl

/-- The printed index maps over the 16 grid points: the token window and the output window sit at row block `t`; the
    four per-expert windows at slab `t / 2`. -/
theorem idx_facts : ∀ t : Fin cfg0.N,
    (win0_5.index t (0 : Fin 3) = 0 ∧ win0_5.index t (1 : Fin 3) = t.val ∧ win0_5.index t (2 : Fin 3) = 0)
    ∧ (win0_0.index t (0 : Fin 3) = 0 ∧ win0_0.index t (1 : Fin 3) = t.val ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0)
    ∧ (win0_4.index t (0 : Fin 3) = t.val / 2 ∧ win0_4.index t (1 : Fin 3) = 0 ∧ win0_4.index t (2 : Fin 3) = 0) :=
  (by decide +kernel : ∀ t : Fin grid0.N, _)

/-! ## The two bias arrays as the region finds them: the host's reshapes of the arguments -/

theorem V_bias1 (c : Dev nD) :
    (V m c main_v0 : S8x1x2048.Idx → EReal)
      = shapeCast S8x1x2048 (m ((c : Thread nD τ).loc main_arg2) : S8x2048.Idx → EReal) shapeCasts_S8x2048_S8x1x2048 := by
  dsimp only [V, hostOps0]; after_results; rfl

theorem V_bias2 (c : Dev nD) :
    (V m c main_v1 : S8x1x1024.Idx → EReal)
      = shapeCast S8x1x1024 (m ((c : Thread nD τ).loc main_arg4) : S8x1024.Idx → EReal) shapeCasts_S8x1024_S8x1x1024 := by
  dsimp only [V, hostOps0]; after_results; rfl

/-! ## Each input block as entries of an argument array -/

/-- The token block at point `t`: rows `128·t + r` of every group. -/
theorem tok_block (c : Dev nD) (t : Fin cfg0.N) (y : S4x128x1024.Idx) (i : S4x2048x1024.Idx)
    (h0 : (i 0).val = (y 0).val) (h1 : (i 1).val = t.val * 128 + (y 1).val) (h2 : (i 2).val = (y 2).val) :
    (iblk m c 0 t : Vec Ideal S4x128x1024 .f32) y = (m ((c : Thread nD τ).loc main_arg0) : S4x2048x1024.Idx → EReal) i := by
  obtain ⟨-, ⟨e0, e1, e2⟩, -⟩ := idx_facts t
  unfold iblk
  rw [View.read_apply]
  show V m c main_arg0 _ = _
  rw [V_main_arg0]
  refine congrArg (m ((c : Thread nD τ).loc main_arg0) : S4x2048x1024.Idx → EReal) ?_
  funext a
  apply Fin.ext
  match a with
  | ⟨0, _⟩ => show win0_0.index t (0 : Fin 3) * 4 + 1 * (y 0).val = (i 0).val; rw [e0, h0]; omega
  | ⟨1, _⟩ => show win0_0.index t (1 : Fin 3) * 128 + 1 * (y 1).val = (i 1).val; rw [e1, h1]; omega
  | ⟨2, _⟩ => show win0_0.index t (2 : Fin 3) * 1024 + 1 * (y 2).val = (i 2).val; rw [e2, h2]; omega

/-- The first-layer matrix block at point `t`: slab `t / 2` of the first weight array. -/
theorem w1_block (c : Dev nD) (t : Fin cfg0.N) (y : S1x1024x2048.Idx) (i : S8x1024x2048.Idx)
    (h0 : (i 0).val = t.val / 2) (h1 : (i 1).val = (y 1).val) (h2 : (i 2).val = (y 2).val) :
    (iblk m c 1 t : Vec Ideal S1x1024x2048 .f32) y = (m ((c : Thread nD τ).loc main_arg1) : S8x1024x2048.Idx → EReal) i := by
  obtain ⟨-, -, ⟨e0, e1, e2⟩, -⟩ := idx_facts t
  have hy : (y 0).val < 1 := (y 0).isLt
  unfold iblk
  rw [View.read_apply]
  show V m c main_arg1 _ = _
  rw [V_main_arg1]
  refine congrArg (m ((c : Thread nD τ).loc main_arg1) : S8x1024x2048.Idx → EReal) ?_
  funext a
  apply Fin.ext
  match a with
  | ⟨0, _⟩ => show win0_1.index t (0 : Fin 3) * 1 + 1 * (y 0).val = (i 0).val; rw [e0, h0]; omega
  | ⟨1, _⟩ => show win0_1.index t (1 : Fin 3) * 1024 + 1 * (y 1).val = (i 1).val; rw [e1, h1]; omega
  | ⟨2, _⟩ => show win0_1.index t (2 : Fin 3) * 2048 + 1 * (y 2).val = (i 2).val; rw [e2, h2]; omega

/-- The second-layer matrix block at point `t`: slab `t / 2` of the second weight array. -/
theorem w2_block (c : Dev nD) (t : Fin cfg0.N) (y : S1x2048x1024.Idx) (i : S8x2048x1024.Idx)
    (h0 : (i 0).val = t.val / 2) (h1 : (i 1).val = (y 1).val) (h2 : (i 2).val = (y 2).val) :
    (iblk m c 3 t : Vec Ideal S1x2048x1024 .f32) y = (m ((c : Thread nD τ).loc main_arg3) : S8x2048x1024.Idx → EReal) i := by
  obtain ⟨-, -, -, -, ⟨e0, e1, e2⟩, -⟩ := idx_facts t
  have hy : (y 0).val < 1 := (y 0).isLt
  unfold iblk
  rw [View.read_apply]
  show V m c main_arg3 _ = _
  rw [V_main_arg3]
  refine congrArg (m ((c : Thread nD τ).loc main_arg3) : S8x2048x1024.Idx → EReal) ?_
  funext a
  apply Fin.ext
  match a with
  | ⟨0, _⟩ => show win0_3.index t (0 : Fin 3) * 1 + 1 * (y 0).val = (i 0).val; rw [e0, h0]; omega
  | ⟨1, _⟩ => show win0_3.index t (1 : Fin 3) * 2048 + 1 * (y 1).val = (i 1).val; rw [e1, h1]; omega
  | ⟨2, _⟩ => show win0_3.index t (2 : Fin 3) * 1024 + 1 * (y 2).val = (i 2).val; rw [e2, h2]; omega

/-- The first bias block at point `t`: row `t / 2` of the first bias array (through the host's reshape to `[8, 1, 2048]`). -/
theorem b1_block (c : Dev nD) (t : Fin cfg0.N) (y : S1x1x2048.Idx) (i : S8x2048.Idx)
    (h0 : (i 0).val = t.val / 2) (h1 : (i 1).val = (y 2).val) :
    (iblk m c 2 t : Vec Ideal S1x1x2048 .f32) y = (m ((c : Thread nD τ).loc main_arg2) : S8x2048.Idx → EReal) i := by
  obtain ⟨-, -, -, ⟨e0, e1, e2⟩, -⟩ := idx_facts t
  have hy0 : (y 0).val < 1 := (y 0).isLt
  have hy1 : (y 1).val < 1 := (y 1).isLt
  unfold iblk
  rw [View.read_apply]
  show V m c main_v0 _ = _
  rw [V_bias1]
  refine shapeCast_apply _ _ _ i ?_
  rw [Shape.rowMajor_val_two, Shape.rowMajor_val_three]
  show (i 0).val * 2048 + (i 1).val
    = ((win0_2.index t (0 : Fin 3) * 1 + 1 * (y 0).val) * 1 + (win0_2.index t (1 : Fin 3) * 1 + 1 * (y 1).val)) * 2048
      + (win0_2.index t (2 : Fin 3) * 2048 + 1 * (y 2).val)
  rw [e0, e1, e2, h0, h1]; omega

/-- The second bias block at point `t`: row `t / 2` of the second bias array (through the host's reshape to `[8, 1, 1024]`). -/
theorem b2_block (c : Dev nD) (t : Fin cfg0.N) (y : S1x1x1024.Idx) (i : S8x1024.Idx)
    (h0 : (i 0).val = t.val / 2) (h1 : (i 1).val = (y 2).val) :
    (iblk m c 4 t : Vec Ideal S1x1x1024 .f32) y = (m ((c : Thread nD τ).loc main_arg4) : S8x1024.Idx → EReal) i := by
  obtain ⟨-, -, -, -, -, ⟨e0, e1, e2⟩⟩ := idx_facts t
  have hy0 : (y 0).val < 1 := (y 0).isLt
  have hy1 : (y 1).val < 1 := (y 1).isLt
  unfold iblk
  rw [View.read_apply]
  show V m c main_v1 _ = _
  rw [V_bias2]
  refine shapeCast_apply _ _ _ i ?_
  rw [Shape.rowMajor_val_two, Shape.rowMajor_val_three]
  show (i 0).val * 1024 + (i 1).val
    = ((win0_4.index t (0 : Fin 3) * 1 + 1 * (y 0).val) * 1 + (win0_4.index t (1 : Fin 3) * 1 + 1 * (y 1).val)) * 1024
      + (win0_4.index t (2 : Fin 3) * 1024 + 1 * (y 2).val)
  rw [e0, e1, e2, h0, h1]; omega

end Cert.KernelIdeal.Hand

end
-- ==== Proof.KernelValue.lean ====
/-
  From blocks to the array: what grid point `t` writes back is block `t` of the specification's `result` of the argument
  arrays (the body's stored value over the point's input blocks, each read as entries of an argument), the 16 blocks
  cover the output's 2048 rows, so after the run the output array IS `result` of the arguments.
-/
import proofs.«135930_g33535104647681_retrytranche2_1941_10_alg».proof.Proof.KernelBlocks

noncomputable section

open scoped BigOperators
open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.ExpertFfn

variable (m : (ℓ : Loc nD τ sig) → Buf (Elt Ideal) ℓ) (ρ : Dev nD → PrngReg)

/-- The specification's result of the five argument arrays as launched on core `c`. -/
abbrev resultOf (c : Dev nD) : S4x2048x1024.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The body's stored value over point `t`'s input blocks, at block element `y`, is `result` at the array element under it:
    same group and column, row `128·t + ` the block's row; the rows of point `t` all belong to expert `t / 2`. -/
theorem stored_eq (c : Dev nD) (t : Fin cfg0.N) (y : S4x128x1024.Idx) (i : S4x2048x1024.Idx)
    (h0 : (i 0).val = (y 0).val) (h1 : (i 1).val = t.val * 128 + (y 1).val) (h2 : (i 2).val = (y 2).val) :
    k0_pay1 (F := Ideal) (iblk m c 0 t) (iblk m c 1 t) (iblk m c 2 t) (iblk m c 3 t) (iblk m c 4 t) y = resultOf m c i := by
  obtain ⟨g, r, d, rfl⟩ : ∃ (g : Fin 4) (r : Fin 128) (d : Fin 1024), y = ix3 g r d := ⟨y 0, y 1, y 2, eq_ix3 y⟩
  have ht : t.val < 16 := lt_of_lt_of_eq t.isLt N_0
  obtain ⟨n, hn⟩ : ∃ n : Fin 2048, n.val = t.val * 128 + r.val :=
    ⟨⟨t.val * 128 + r.val, by have := r.isLt; omega⟩, rfl⟩
  have hi : i = ix3 g n d := funext fun a => Fin.ext (by
    match a with
    | ⟨0, _⟩ => exact h0
    | ⟨1, _⟩ => exact h1.trans hn.symm
    | ⟨2, _⟩ => exact h2)
  subst hi
  have he : (expertOf n).val = t.val / 2 := by
    show n.val / 256 = t.val / 2
    have := r.isLt; omega
  refine (pay_apply (iblk m c 0 t) (iblk m c 1 t) (iblk m c 2 t) (iblk m c 3 t) (iblk m c 4 t) g r d).trans ?_
  show _ = outAt _ _ _ _ _ g n d
  unfold outAt
  exact ffn_congr (fun k => tok_block m c t _ _ rfl hn rfl) (fun k f => w1_block m c t _ _ he rfl rfl)
    (fun f => b1_block m c t _ _ he rfl) (fun f => w2_block m c t _ _ he rfl rfl) (b2_block m c t _ _ he rfl)

/-- WHAT POINT `t` WRITES BACK is block `t` of `result` of the argument arrays. -/
theorem flushed_eq (c : Dev nD) (t : Fin cfg0.N) :
    (dats m 0 c).flushed 5 t = ((cfg0.win 5).blk t).view.read (Elt Ideal) (resultOf m c) := by
  rw [flushed5]
  unfold out0_5
  rw [View.canon_unit_zero zero_offsets]
  simp only [View.ld_unit_zero (S := S4x128x1024) zero_offsets, View.ld_unit_zero (S := S1x1024x2048) zero_offsets,
    View.ld_unit_zero (S := S1x1x2048) zero_offsets, View.ld_unit_zero (S := S1x2048x1024) zero_offsets,
    View.ld_unit_zero (S := S1x1x1024) zero_offsets]
  obtain ⟨⟨e0, e1, e2⟩, -⟩ := idx_facts t
  funext j
  show k0_pay1 (F := Ideal) (iblk m c 0 t) (iblk m c 1 t) (iblk m c 2 t) (iblk m c 3 t) (iblk m c 4 t) j
    = resultOf m c (((cfg0.win 5).blk t).view.emb j)
  refine stored_eq m c t j _ ?_ ?_ ?_
  · show win0_5.index t (0 : Fin 3) * 4 + 1 * (j 0).val = (j 0).val; rw [e0]; omega
  · show win0_5.index t (1 : Fin 3) * 128 + 1 * (j 1).val = t.val * 128 + (j 1).val; rw [e1]; omega
  · show win0_5.index t (2 : Fin 3) * 1024 + 1 * (j 2).val = (j 2).val; rw [e2]; omega

/-- An index of the output array is in point `t`'s block iff each coordinate is in the block's range on its axis. -/
theorem mem_blk (t : Fin cfg0.N) (i : S4x2048x1024.Idx) :
    i ∈ ((cfg0.win 5).blk t).view.set ↔ ∀ a : Fin 3, win0_5.index t a * S4x128x1024.size a ≤ (i a).val
      ∧ (i a).val < win0_5.index t a * S4x128x1024.size a + S4x128x1024.size a := by
  show i ∈ ((View.whole main_v2).slice (win0_5.rect t)).set ↔ _
  rw [View.set_slice_whole, Rect.mem_set_unit]
  exact Iff.rfl

/-- Every index of the output array is in some point's block: row `n` is in point `n / 128`'s. -/
theorem covered (i : S4x2048x1024.Idx) :
    ∃ t : Fin cfg0.N, (cfg0.win 5).flush t = true ∧ i ∈ ((cfg0.win 5).blk t).view.set := by
  have hN : cfg0.N = 16 := N_0
  have hi0 : (i 0).val < 4 := (i 0).isLt
  have hi1 : (i 1).val < 2048 := (i 1).isLt
  have hi2 : (i 2).val < 1024 := (i 2).isLt
  obtain ⟨t, ht⟩ : ∃ t : Fin cfg0.N, t.val = (i 1).val / 128 := ⟨⟨(i 1).val / 128, by rw [hN]; omega⟩, rfl⟩
  obtain ⟨⟨e0, e1, e2⟩, -⟩ := idx_facts t
  refine ⟨t, flush0_5 t, ?_⟩
  rw [mem_blk]
  intro a
  match a with
  | ⟨0, _⟩ =>
    show win0_5.index t (0 : Fin 3) * 4 ≤ (i 0).val ∧ (i 0).val < win0_5.index t (0 : Fin 3) * 4 + 4
    rw [e0]; omega
  | ⟨1, _⟩ =>
    show win0_5.index t (1 : Fin 3) * 128 ≤ (i 1).val ∧ (i 1).val < win0_5.index t (1 : Fin 3) * 128 + 128
    rw [e1, ht]; omega
  | ⟨2, _⟩ =>
    show win0_5.index t (2 : Fin 3) * 1024 ≤ (i 2).val ∧ (i 2).val < win0_5.index t (2 : Fin 3) * 1024 + 1024
    rw [e2]; omega

/-- THE OUTPUT ARRAY after the run is `result` of the argument arrays. -/
theorem final (c : Dev nD) : (dats m 0 c).arrAt 5 cfg0.N = resultOf m c :=
  (dats m 0 c).arrAt_eq_of_cover 5 (resultOf m c) (fun t _ => flushed_eq m c t) covered

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v2) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Hand

end
-- ==== Proof.RefExpert.lean ====
/-
  The reference, one expert at a time. For expert `e` the host slices out its 256 token rows `inputs[:, 256·e … 256·e + 255, :]`,
  its two matrices and its two bias rows, contracts the rows with the first matrix, adds the bias (spread over all
  rows), applies the tanh-approximate GELU, contracts with the second matrix and adds the second bias. Read at
  `(g, r, d)` that is the two-layer network `ffn` of token row `256·e + r` of group `g` through expert `e`: the rows
  `256·e …` are exactly those whose expert is `e`, so the expert's output is a 256-row block of the specification's
  `result`. The eight outputs concatenated along the row axis are then `result` itself (`concat_at`).
-/
import proofs.«135930_g33535104647681_retrytranche2_1941_10_alg».proof.Proof.Gen.ReferenceIdeal
import proofs.«135930_g33535104647681_retrytranche2_1941_10_alg».proof.Proof.Spec
import proofs.«135930_g33535104647681_retrytranche2_1941_10_alg».proof.Proof.LibContract
import proofs.«135930_g33535104647681_retrytranche2_1941_10_alg».proof.Proof.LibRowsLayout
import Idealize.ShloMosaic.Lib.ValueLayout
import Idealize.ShloMosaic.Lib.Pipeline.Value

noncomputable section

open scoped BigOperators

namespace Cert.ReferenceIdeal.Hand

open Cert.ReferenceIdeal Idealize.ShloMosaic Idealize.ShloMosaic.ValueIdx
open Cert.ExpertFfn Cert.LibContract Cert.LibRowsLayout

/-- The host's activation, element by element, is `gelu` (its cube is `(h · h) · h`; its constants are scalars spread over
    the whole array, each the word itself at every element). -/
theorem act_apply (h : FVec Ideal S4x256x2048 .f32) (bs : S_.BroadcastsInDim S4x256x2048 (![] : Fin 0 → Fin S4x256x2048.rank))
    (i : S4x256x2048.Idx) :
    mulf h (mulf (broadcastInDim S4x256x2048 ![] bs (constant (F := Ideal) S_ .f32 0x3F000000#32))
      (addf (broadcastInDim S4x256x2048 ![] bs (constant (F := Ideal) S_ .f32 0x3F800000#32))
        (Host.tanh (mulf (broadcastInDim S4x256x2048 ![] bs (constant (F := Ideal) S_ .f32 0x3F4C422A#32))
          (addf h (mulf (broadcastInDim S4x256x2048 ![] bs (constant (F := Ideal) S_ .f32 0x3D372713#32))
            (mulf (mulf h h) h))))))) i
      = gelu (h i) :=
  gelu_cube_left (h i)

/-- Expert `e`'s first layer before the activation at `(g, r, f)`: token row `n = o + r` (`o` the slice's row offset) times
    column `f` of the expert's first matrix, plus the expert's first bias at `f`. -/
theorem hidden_apply (X : FVec Ideal S4x2048x1024 .f32) (W1 : FVec Ideal S8x1024x2048 .f32) (B1 : FVec Ideal S8x2048 .f32)
    (o e : ℕ) (hx : S4x2048x1024.Slices ![0, o, 0] S4x256x1024) (hw : S8x1024x2048.Slices ![e, 0, 0] S1x1024x2048)
    (hb : S8x2048.Slices ![e, 0] S1x2048)
    (wf1 : DotDims.WF S4x256x1024 S1024x2048 S4x256x2048 [2] [0] [0, 1] [1] [] [])
    (sc1 : S1x1024x2048.ShapeCasts S1024x2048) (sc2 : S1x2048.ShapeCasts S2048)
    (bc1 : S2048.BroadcastsInDim S1x1x2048 (![2] : Fin 1 → Fin S1x1x2048.rank))
    (bc2 : S1x1x2048.BroadcastsInDim S4x256x2048 (![0, 1, 2] : Fin 3 → Fin S4x256x2048.rank))
    (g : Fin 4) (r : Fin 256) (f : Fin 2048) (n : Fin 2048) (hn : n.val = o + r.val) (ee : Fin 8) (hee : ee.val = e) :
    addf (Host.dotGeneral (rowsDims 4 256 1024 2048 wf1) none (extractStridedSlice S4x256x1024 ![0, o, 0] X hx)
        (shapeCast S1024x2048 (extractStridedSlice S1x1024x2048 ![e, 0, 0] W1 hw) sc1))
      (broadcastInDim S4x256x2048 ![0, 1, 2] bc2 (broadcastInDim S1x1x2048 ![2] bc1
        (shapeCast S2048 (extractStridedSlice S1x2048 ![e, 0] B1 hb) sc2))) (ix3 g r f)
      = (∑ k : Fin 1024, X (ix3 g n k) * W1 (ix3 ee k f)) + B1 (ix2 ee f) := by
  rw [addf_apply, dotGeneral_rows_apply, broadcast_lastAxis_apply, shapeCast_1a_a_apply, slice2_axis0_eq]
  have e1 : (⟨e + (0 : Fin 1).val, Nat.lt_of_lt_of_le (Nat.add_lt_add_left (0 : Fin 1).isLt e) (hb.2 0)⟩ : Fin 8) = ee :=
    Fin.ext (by show e + 0 = ee.val; omega)
  rw [e1]
  refine congrArg (· + B1 (ix2 ee f)) (Finset.sum_congr rfl fun k _ => ?_)
  rw [slice3_axis1_eq, shapeCast_1ab_ab_apply, slice3_axis0_eq]
  have e2 : (⟨o + r.val, Nat.lt_of_lt_of_le (Nat.add_lt_add_left r.isLt o) (hx.2 1)⟩ : Fin 2048) = n :=
    Fin.ext hn.symm
  have e3 : (⟨e + (0 : Fin 1).val, Nat.lt_of_lt_of_le (Nat.add_lt_add_left (0 : Fin 1).isLt e) (hw.2 0)⟩ : Fin 8) = ee :=
    Fin.ext (by show e + 0 = ee.val; omega)
  rw [e2, e3]

/-- Expert `e`'s second layer at `(g, r, d)`, over any activated array `a`: row `(g, r)` of `a` times column `d` of the expert's
    second matrix, plus the expert's second bias at `d`. -/
theorem out_apply (a : FVec Ideal S4x256x2048 .f32) (W2 : FVec Ideal S8x2048x1024 .f32) (B2 : FVec Ideal S8x1024 .f32)
    (e : ℕ) (hw : S8x2048x1024.Slices ![e, 0, 0] S1x2048x1024) (hb : S8x1024.Slices ![e, 0] S1x1024)
    (wf2 : DotDims.WF S4x256x2048 S2048x1024 S4x256x1024 [2] [0] [0, 1] [1] [] [])
    (sc3 : S1x2048x1024.ShapeCasts S2048x1024) (sc4 : S1x1024.ShapeCasts S1024)
    (bc3 : S1024.BroadcastsInDim S1x1x1024 (![2] : Fin 1 → Fin S1x1x1024.rank))
    (bc4 : S1x1x1024.BroadcastsInDim S4x256x1024 (![0, 1, 2] : Fin 3 → Fin S4x256x1024.rank))
    (g : Fin 4) (r : Fin 256) (d : Fin 1024) (ee : Fin 8) (hee : ee.val = e) :
    addf (Host.dotGeneral (rowsDims 4 256 2048 1024 wf2) none a
        (shapeCast S2048x1024 (extractStridedSlice S1x2048x1024 ![e, 0, 0] W2 hw) sc3))
      (broadcastInDim S4x256x1024 ![0, 1, 2] bc4 (broadcastInDim S1x1x1024 ![2] bc3
        (shapeCast S1024 (extractStridedSlice S1x1024 ![e, 0] B2 hb) sc4))) (ix3 g r d)
      = (∑ f : Fin 2048, a (ix3 g r f) * W2 (ix3 ee f d)) + B2 (ix2 ee d) := by
  rw [addf_apply, dotGeneral_rows_apply, broadcast_lastAxis_apply, shapeCast_1a_a_apply, slice2_axis0_eq]
  have e1 : (⟨e + (0 : Fin 1).val, Nat.lt_of_lt_of_le (Nat.add_lt_add_left (0 : Fin 1).isLt e) (hb.2 0)⟩ : Fin 8) = ee :=
    Fin.ext (by show e + 0 = ee.val; omega)
  rw [e1]
  refine congrArg (· + B2 (ix2 ee d)) (Finset.sum_congr rfl fun f _ => ?_)
  rw [shapeCast_1ab_ab_apply, slice3_axis0_eq]
  have e3 : (⟨e + (0 : Fin 1).val, Nat.lt_of_lt_of_le (Nat.add_lt_add_left (0 : Fin 1).isLt e) (hw.2 0)⟩ : Fin 8) = ee :=
    Fin.ext (by show e + 0 = ee.val; omega)
  rw [e3]

/-- Expert `e`'s 256 rows of the specification's result: rows `256·e + r`. -/
def expertRows (X : FVec Ideal S4x2048x1024 .f32) (W1 : FVec Ideal S8x1024x2048 .f32) (B1 : FVec Ideal S8x2048 .f32)
    (W2 : FVec Ideal S8x2048x1024 .f32) (B2 : FVec Ideal S8x1024 .f32) (e : Fin 8) : S4x256x1024.Idx → EReal :=
  fun i => outAt X W1 B1 W2 B2 (i 0) ⟨256 * e.val + (i 1).val, by have := e.isLt; have : (i 1).val < 256 := (i 1).isLt; omega⟩ (i 2)

/-- EXPERT `e`'s OUTPUT as the host computes it — over its first layer `h` before the activation, known element by element
    (`hh`) — is the expert's 256 rows of `result`. -/
theorem piece_eq (X : FVec Ideal S4x2048x1024 .f32) (W1 : FVec Ideal S8x1024x2048 .f32) (B1 : FVec Ideal S8x2048 .f32)
    (W2 : FVec Ideal S8x2048x1024 .f32) (B2 : FVec Ideal S8x1024 .f32) (e : ℕ) (ee : Fin 8) (hee : ee.val = e)
    (hw : S8x2048x1024.Slices ![e, 0, 0] S1x2048x1024) (hb : S8x1024.Slices ![e, 0] S1x1024)
    (wf2 : DotDims.WF S4x256x2048 S2048x1024 S4x256x1024 [2] [0] [0, 1] [1] [] [])
    (sc3 : S1x2048x1024.ShapeCasts S2048x1024) (sc4 : S1x1024.ShapeCasts S1024)
    (bc3 : S1024.BroadcastsInDim S1x1x1024 (![2] : Fin 1 → Fin S1x1x1024.rank))
    (bc4 : S1x1x1024.BroadcastsInDim S4x256x1024 (![0, 1, 2] : Fin 3 → Fin S4x256x1024.rank))
    (bs : S_.BroadcastsInDim S4x256x2048 (![] : Fin 0 → Fin S4x256x2048.rank))
    (h : FVec Ideal S4x256x2048 .f32)
    (hh : ∀ (g : Fin 4) (r : Fin 256) (f : Fin 2048) (n : Fin 2048), n.val = 256 * e + r.val →
      h (ix3 g r f) = (∑ k : Fin 1024, X (ix3 g n k) * W1 (ix3 ee k f)) + B1 (ix2 ee f)) :
    addf (Host.dotGeneral (rowsDims 4 256 2048 1024 wf2) none
        (mulf h (mulf (broadcastInDim S4x256x2048 ![] bs (constant (F := Ideal) S_ .f32 0x3F000000#32))
          (addf (broadcastInDim S4x256x2048 ![] bs (constant (F := Ideal) S_ .f32 0x3F800000#32))
            (Host.tanh (mulf (broadcastInDim S4x256x2048 ![] bs (constant (F := Ideal) S_ .f32 0x3F4C422A#32))
              (addf h (mulf (broadcastInDim S4x256x2048 ![] bs (constant (F := Ideal) S_ .f32 0x3D372713#32))
                (mulf (mulf h h) h))))))))
        (shapeCast S2048x1024 (extractStridedSlice S1x2048x1024 ![e, 0, 0] W2 hw) sc3))
      (broadcastInDim S4x256x1024 ![0, 1, 2] bc4 (broadcastInDim S1x1x1024 ![2] bc3
        (shapeCast S1024 (extractStridedSlice S1x1024 ![e, 0] B2 hb) sc4)))
      = expertRows X W1 B1 W2 B2 ee := by
  funext i
  obtain ⟨g, r, d, rfl⟩ : ∃ (g : Fin 4) (r : Fin 256) (d : Fin 1024), i = ix3 g r d := ⟨i 0, i 1, i 2, eq_ix3 i⟩
  rw [out_apply _ W2 B2 e hw hb wf2 sc3 sc4 bc3 bc4 g r d ee hee]
  obtain ⟨n, hn⟩ : ∃ n : Fin 2048, n.val = 256 * e + r.val :=
    ⟨⟨256 * e + r.val, by have := ee.isLt; have := r.isLt; omega⟩, rfl⟩
  have hne : expertOf n = ee := Fin.ext (by show n.val / 256 = ee.val; have := r.isLt; omega)
  show _ = outAt X W1 B1 W2 B2 g ⟨256 * ee.val + r.val, _⟩ d
  have hn' : (⟨256 * ee.val + r.val, by have := ee.isLt; have := r.isLt; omega⟩ : Fin 2048) = n :=
    Fin.ext (by show 256 * ee.val + r.val = n.val; omega)
  rw [hn']
  unfold outAt ffn
  rw [hne]
  refine congrArg (· + B2 (ix2 ee d)) (Finset.sum_congr rfl fun f _ => ?_)
  rw [act_apply, hh g r f n hn]

/-- The eight experts' outputs concatenated along the row axis, read at `(g, n, d)`: row `n` falls in piece `k = n / 256`,
    at row `n − 256·k` of it; when that piece is expert `k`'s rows of `result`, the concatenation reads `result` there. -/
theorem concat_at (X : FVec Ideal S4x2048x1024 .f32) (W1 : FVec Ideal S8x1024x2048 .f32) (B1 : FVec Ideal S8x2048 .f32)
    (W2 : FVec Ideal S8x2048x1024 .f32) (B2 : FVec Ideal S8x1024 .f32)
    (xs : List ((s : Shape) × (s.Idx → EReal))) (h : Shape.Concatenates (xs.map (·.1)) S4x2048x1024 1)
    (g : Fin 4) (n : Fin 2048) (d : Fin 1024) (k : ℕ) (hk : k < xs.length) (ek : Fin 8) (hek : ek.val = k)
    (hnk : n.val / 256 = k) (t : S4x256x1024.Idx → EReal) (hxk : xs[k] = ⟨S4x256x1024, t⟩)
    (hpre : (((xs.take k).map (·.1)).map fun s => if h : s.rank = S4x2048x1024.rank then s.size ((1 : Fin 3).cast h.symm) else 0).sum
      = 256 * k)
    (ht : t = expertRows X W1 B1 W2 B2 ek) :
    concatenate S4x2048x1024 1 xs h (ix3 g n d) = result X W1 B1 W2 B2 (ix3 g n d) := by
  have hn := n.isLt
  obtain ⟨r, hr⟩ : ∃ r : Fin 256, r.val = n.val - 256 * k := ⟨⟨n.val - 256 * k, by omega⟩, rfl⟩
  refine (concatenate_apply_piece (1 : Fin 3) xs h (ix3 g n d) k hk S4x256x1024 t hxk rfl (256 * k) hpre (ix3 g r d)
    (fun b hb => ?_) ?_).trans ?_
  · match b with
    | ⟨0, _⟩ => rfl
    | ⟨1, _⟩ => exact absurd rfl hb
    | ⟨2, _⟩ => rfl
  · show 256 * k + r.val = n.val
    omega
  · rw [ht, result_ix3]
    show outAt X W1 B1 W2 B2 g ⟨256 * ek.val + r.val, _⟩ d = _
    have e1 : (⟨256 * ek.val + r.val, by have := ek.isLt; have := r.isLt; omega⟩ : Fin 2048) = n :=
      Fin.ext (by show 256 * ek.val + r.val = n.val; omega)
    rw [e1]

end Cert.ReferenceIdeal.Hand

end
-- ==== Proof.RefValue.lean ====
/-
  The reference's result array as the specification's `result` of the argument arrays.

  The generated run states the result as the concatenation, along the row axis, of eight terms, one per expert, each
  over that expert's named first layer. Each term is the expert's 256 rows of `result` (`piece_eq`, from the first layer
  read element by element), and a row `n` of the concatenation lies in piece `n / 256`: so the whole is `result`.
-/
import proofs.«135930_g33535104647681_retrytranche2_1941_10_alg».proof.Proof.Gen.ReferenceIdeal.Run
import proofs.«135930_g33535104647681_retrytranche2_1941_10_alg».proof.Proof.RefExpert

noncomputable section

open scoped BigOperators

namespace Cert.ReferenceIdeal.Hand

open Cert.ReferenceIdeal Cert.ReferenceIdeal.Gen Cert.ReferenceIdeal.Value Idealize.ShloMosaic Idealize.ShloMosaic.ValueIdx
open Idealize.ShloMosaic.StableHlo Cert.ExpertFfn

variable (V0 : Valuation τ sig (Elt Ideal))

/-- The five argument arrays of a valuation. -/
abbrev argX : FVec Ideal S4x2048x1024 .f32 := V0 (Proc.devRef .tc main_arg0)
abbrev argW1 : FVec Ideal S8x1024x2048 .f32 := V0 (Proc.devRef .tc main_arg1)
abbrev argB1 : FVec Ideal S8x2048 .f32 := V0 (Proc.devRef .tc main_arg2)
abbrev argW2 : FVec Ideal S8x2048x1024 .f32 := V0 (Proc.devRef .tc main_arg3)
abbrev argB2 : FVec Ideal S8x1024 .f32 := V0 (Proc.devRef .tc main_arg4)

/-- Expert 0's first layer before the activation, element by element (the generated run names it). -/
theorem hidden0 (g : Fin 4) (r : Fin 256) (f : Fin 2048) (n : Fin 2048) (hn : n.val = 256 * 0 + r.val) :
    res_main_v15 V0 (ix3 g r f)
      = (∑ k : Fin 1024, argX V0 (ix3 g n k) * argW1 V0 (ix3 (0 : Fin 8) k f)) + argB1 V0 (ix2 (0 : Fin 8) f) := by
  unfold res_main_v15
  exact hidden_apply _ _ _ (256 * 0) 0 _ _ _ _ _ _ _ _ g r f n hn 0 rfl

/-- Expert 1's first layer before the activation, element by element (the generated run names it). -/
theorem hidden1 (g : Fin 4) (r : Fin 256) (f : Fin 2048) (n : Fin 2048) (hn : n.val = 256 * 1 + r.val) :
    res_main_v44 V0 (ix3 g r f)
      = (∑ k : Fin 1024, argX V0 (ix3 g n k) * argW1 V0 (ix3 (1 : Fin 8) k f)) + argB1 V0 (ix2 (1 : Fin 8) f) := by
  unfold res_main_v44
  exact hidden_apply _ _ _ (256 * 1) 1 _ _ _ _ _ _ _ _ g r f n hn 1 rfl

/-- Expert 2's first layer before the activation, element by element (the generated run names it). -/
theorem hidden2 (g : Fin 4) (r : Fin 256) (f : Fin 2048) (n : Fin 2048) (hn : n.val = 256 * 2 + r.val) :
    res_main_v73 V0 (ix3 g r f)
      = (∑ k : Fin 1024, argX V0 (ix3 g n k) * argW1 V0 (ix3 (2 : Fin 8) k f)) + argB1 V0 (ix2 (2 : Fin 8) f) := by
  unfold res_main_v73
  exact hidden_apply _ _ _ (256 * 2) 2 _ _ _ _ _ _ _ _ g r f n hn 2 rfl

/-- Expert 3's first layer before the activation, element by element (the generated run names it). -/
theorem hidden3 (g : Fin 4) (r : Fin 256) (f : Fin 2048) (n : Fin 2048) (hn : n.val = 256 * 3 + r.val) :
    res_main_v102 V0 (ix3 g r f)
      = (∑ k : Fin 1024, argX V0 (ix3 g n k) * argW1 V0 (ix3 (3 : Fin 8) k f)) + argB1 V0 (ix2 (3 : Fin 8) f) := by
  unfold res_main_v102
  exact hidden_apply _ _ _ (256 * 3) 3 _ _ _ _ _ _ _ _ g r f n hn 3 rfl

/-- Expert 4's first layer before the activation, element by element (the generated run names it). -/
theorem hidden4 (g : Fin 4) (r : Fin 256) (f : Fin 2048) (n : Fin 2048) (hn : n.val = 256 * 4 + r.val) :
    res_main_v131 V0 (ix3 g r f)
      = (∑ k : Fin 1024, argX V0 (ix3 g n k) * argW1 V0 (ix3 (4 : Fin 8) k f)) + argB1 V0 (ix2 (4 : Fin 8) f) := by
  unfold res_main_v131
  exact hidden_apply _ _ _ (256 * 4) 4 _ _ _ _ _ _ _ _ g r f n hn 4 rfl

/-- Expert 5's first layer before the activation, element by element (the generated run names it). -/
theorem hidden5 (g : Fin 4) (r : Fin 256) (f : Fin 2048) (n : Fin 2048) (hn : n.val = 256 * 5 + r.val) :
    res_main_v160 V0 (ix3 g r f)
      = (∑ k : Fin 1024, argX V0 (ix3 g n k) * argW1 V0 (ix3 (5 : Fin 8) k f)) + argB1 V0 (ix2 (5 : Fin 8) f) := by
  unfold res_main_v160
  exact hidden_apply _ _ _ (256 * 5) 5 _ _ _ _ _ _ _ _ g r f n hn 5 rfl

/-- Expert 6's first layer before the activation, element by element (the generated run names it). -/
theorem hidden6 (g : Fin 4) (r : Fin 256) (f : Fin 2048) (n : Fin 2048) (hn : n.val = 256 * 6 + r.val) :
    res_main_v189 V0 (ix3 g r f)
      = (∑ k : Fin 1024, argX V0 (ix3 g n k) * argW1 V0 (ix3 (6 : Fin 8) k f)) + argB1 V0 (ix2 (6 : Fin 8) f) := by
  unfold res_main_v189
  exact hidden_apply _ _ _ (256 * 6) 6 _ _ _ _ _ _ _ _ g r f n hn 6 rfl

/-- Expert 7's first layer before the activation, element by element (the generated run names it). -/
theorem hidden7 (g : Fin 4) (r : Fin 256) (f : Fin 2048) (n : Fin 2048) (hn : n.val = 256 * 7 + r.val) :
    res_main_v218 V0 (ix3 g r f)
      = (∑ k : Fin 1024, argX V0 (ix3 g n k) * argW1 V0 (ix3 (7 : Fin 8) k f)) + argB1 V0 (ix2 (7 : Fin 8) f) := by
  unfold res_main_v218
  exact hidden_apply _ _ _ (256 * 7) 7 _ _ _ _ _ _ _ _ g r f n hn 7 rfl

/-- THE REFERENCE'S RESULT is `result` of its arguments. -/
theorem res_eq : (res_main_v240 V0 : S4x2048x1024.Idx → EReal)
    = result (argX V0) (argW1 V0) (argB1 V0) (argW2 V0) (argB2 V0) := by
  funext j
  obtain ⟨g, n, d, rfl⟩ : ∃ (g : Fin 4) (n : Fin 2048) (d : Fin 1024), j = ix3 g n d := ⟨j 0, j 1, j 2, eq_ix3 j⟩
  have hn := n.isLt
  have hcases : n.val / 256 = 0 ∨ n.val / 256 = 1 ∨ n.val / 256 = 2 ∨ n.val / 256 = 3 ∨ n.val / 256 = 4
      ∨ n.val / 256 = 5 ∨ n.val / 256 = 6 ∨ n.val / 256 = 7 := by omega
  unfold res_main_v240
  rcases hcases with h | h | h | h | h | h | h | h
  · exact concat_at (argX V0) (argW1 V0) (argB1 V0) (argW2 V0) (argB2 V0) _ _ g n d 0 (by show (0 : ℕ) < 8; omega) 0 rfl h _ rfl rfl
      (piece_eq (argX V0) (argW1 V0) (argB1 V0) (argW2 V0) (argB2 V0) 0 0 rfl _ _ _ _ _ _ _ _ (res_main_v15 V0) (hidden0 V0))
  · exact concat_at (argX V0) (argW1 V0) (argB1 V0) (argW2 V0) (argB2 V0) _ _ g n d 1 (by show (1 : ℕ) < 8; omega) 1 rfl h _ rfl rfl
      (piece_eq (argX V0) (argW1 V0) (argB1 V0) (argW2 V0) (argB2 V0) 1 1 rfl _ _ _ _ _ _ _ _ (res_main_v44 V0) (hidden1 V0))
  · exact concat_at (argX V0) (argW1 V0) (argB1 V0) (argW2 V0) (argB2 V0) _ _ g n d 2 (by show (2 : ℕ) < 8; omega) 2 rfl h _ rfl rfl
      (piece_eq (argX V0) (argW1 V0) (argB1 V0) (argW2 V0) (argB2 V0) 2 2 rfl _ _ _ _ _ _ _ _ (res_main_v73 V0) (hidden2 V0))
  · exact concat_at (argX V0) (argW1 V0) (argB1 V0) (argW2 V0) (argB2 V0) _ _ g n d 3 (by show (3 : ℕ) < 8; omega) 3 rfl h _ rfl rfl
      (piece_eq (argX V0) (argW1 V0) (argB1 V0) (argW2 V0) (argB2 V0) 3 3 rfl _ _ _ _ _ _ _ _ (res_main_v102 V0) (hidden3 V0))
  · exact concat_at (argX V0) (argW1 V0) (argB1 V0) (argW2 V0) (argB2 V0) _ _ g n d 4 (by show (4 : ℕ) < 8; omega) 4 rfl h _ rfl rfl
      (piece_eq (argX V0) (argW1 V0) (argB1 V0) (argW2 V0) (argB2 V0) 4 4 rfl _ _ _ _ _ _ _ _ (res_main_v131 V0) (hidden4 V0))
  · exact concat_at (argX V0) (argW1 V0) (argB1 V0) (argW2 V0) (argB2 V0) _ _ g n d 5 (by show (5 : ℕ) < 8; omega) 5 rfl h _ rfl rfl
      (piece_eq (argX V0) (argW1 V0) (argB1 V0) (argW2 V0) (argB2 V0) 5 5 rfl _ _ _ _ _ _ _ _ (res_main_v160 V0) (hidden5 V0))
  · exact concat_at (argX V0) (argW1 V0) (argB1 V0) (argW2 V0) (argB2 V0) _ _ g n d 6 (by show (6 : ℕ) < 8; omega) 6 rfl h _ rfl rfl
      (piece_eq (argX V0) (argW1 V0) (argB1 V0) (argW2 V0) (argB2 V0) 6 6 rfl _ _ _ _ _ _ _ _ (res_main_v189 V0) (hidden6 V0))
  · exact concat_at (argX V0) (argW1 V0) (argB1 V0) (argW2 V0) (argB2 V0) _ _ g n d 7 (by show (7 : ℕ) < 8; omega) 7 rfl h _ rfl rfl
      (piece_eq (argX V0) (argW1 V0) (argB1 V0) (argW2 V0) (argB2 V0) 7 7 rfl _ _ _ _ _ _ _ _ (res_main_v218 V0) (hidden7 V0))

end Cert.ReferenceIdeal.Hand

end
-- ==== Proof.lean ====
/- The proof of `Cert.Claim`: a mixture-of-experts feed-forward layer with static routing — token row `n` of every group
   goes to expert `n / 256`, a two-layer network `gelu(x · W1[e] + b1[e]) · W2[e] + b2[e]` with the tanh-approximate GELU —
   computed by a kernel that visits 128 rows of one expert per grid point, against a reference that slices out each
   expert's 256 rows, applies the expert and concatenates.

   At the ideal values both result arrays are ONE function of the five arguments, `Cert.ExpertFfn.result` (Proof/Spec.lean):
   the kernel's by reading each grid point's stored block element by element (Proof/KernelPayload.lean: the two matrix
   products as sums over the contracted coordinate, the flattening of 4 × 128 rows to 512 and back) over the point's
   input blocks as entries of the arguments (Proof/KernelBlocks.lean), the 16 blocks covering the output
   (Proof/KernelValue.lean); the reference's by reading each expert's term the same way (Proof/RefExpert.lean) and the
   concatenation at a row (Proof/RefValue.lean). The only algebra between the two sides is that the cube inside the
   GELU is associated differently, `h · (h · h)` against `(h · h) · h`: multiplication of extended reals commutes, so no
   finiteness of the inputs is used. The idealization rewrote nothing, so `preserves` is `True`; the three frames are the
   generated ones (the reference's is its generated run with the result dropped). -/
import proofs.«135930_g33535104647681_retrytranche2_1941_10_alg».proof.Defs
import proofs.«135930_g33535104647681_retrytranche2_1941_10_alg».proof.Proof.Gen.Kernel
import proofs.«135930_g33535104647681_retrytranche2_1941_10_alg».proof.Proof.Gen.Kernel.Skeleton
import proofs.«135930_g33535104647681_retrytranche2_1941_10_alg».proof.Proof.Gen.Kernel.Launch
import proofs.«135930_g33535104647681_retrytranche2_1941_10_alg».proof.Proof.Gen.Kernel.Points
import proofs.«135930_g33535104647681_retrytranche2_1941_10_alg».proof.Proof.Gen.Kernel.Frame
import proofs.«135930_g33535104647681_retrytranche2_1941_10_alg».proof.Proof.Gen.KernelIdeal
import proofs.«135930_g33535104647681_retrytranche2_1941_10_alg».proof.Proof.Gen.KernelIdeal.Skeleton
import proofs.«135930_g33535104647681_retrytranche2_1941_10_alg».proof.Proof.Gen.KernelIdeal.Launch
import proofs.«135930_g33535104647681_retrytranche2_1941_10_alg».proof.Proof.Gen.KernelIdeal.Points
import proofs.«135930_g33535104647681_retrytranche2_1941_10_alg».proof.Proof.Gen.KernelIdeal.Frame
import proofs.«135930_g33535104647681_retrytranche2_1941_10_alg».proof.Proof.Gen.ReferenceIdeal
import proofs.«135930_g33535104647681_retrytranche2_1941_10_alg».proof.Proof.Gen.Pre_finite_inputs
import proofs.«135930_g33535104647681_retrytranche2_1941_10_alg».proof.Proof.Gen.KernelIdeal.Value
import proofs.«135930_g33535104647681_retrytranche2_1941_10_alg».proof.Proof.Gen.ReferenceIdeal.Run
import proofs.«135930_g33535104647681_retrytranche2_1941_10_alg».proof.Proof.KernelValue
import proofs.«135930_g33535104647681_retrytranche2_1941_10_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the result array at `result` of the arguments:
    the kernel's run read block by block, the reference's run read expert by expert. -/
theorem algebraic : Cert.algebraic_KernelIdeal_ReferenceIdeal := by
  intro m ρ m' ρ' _ hagree
  refine ⟨fun c => Cert.KernelIdeal.Hand.resultOf m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  refine (Cert.ReferenceIdeal.Hand.res_eq _).trans ?_
  show Cert.ExpertFfn.result
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
  rw [h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
